-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65x65x65 : Shape := ⟨3, ![65, 65, 65]⟩
abbrev S_ : Shape := ⟨0, ![]⟩

class Facts : Prop where
  bcast_S_S65x65x65 : S_.BroadcastsInDim S65x65x65 (![] : Fin 0 → Fin S65x65x65.rank)
  reducesTo_S65x65x65_S_d0_1_2 : S65x65x65.ReducesTo [0, 1, 2] S_
  h_S_ : 0 < S_.numel

variable [Facts]

def fn {F : FTy → Type} [FloatOps F] (main_arg0 : FVec F S65x65x65 .f32) : IVec S_ 1 :=
  let main_v0 : FVec F S65x65x65 .f32 := Host.absf main_arg0
  let main_cst : FVec F S_ .f32 := constant S_ .f32 0x7F800000#32
  let main_v1 : FVec F S65x65x65 .f32 := broadcastInDim S65x65x65 ![] bcast_S_S65x65x65 main_cst
  let main_v2 : IVec S65x65x65 1 := cmpf .olt main_v0 main_v1
  let main_c : IVec S_ 1 := constantI S_ 1 1#1
  let main_v3 : IVec S_ 1 := (fun x v => Host.reduce IntOp.andi x v reducesTo_S65x65x65_S_d0_1_2 h_S_) main_v2 main_c
  main_v3
-- ==== Kernel.lean ====
abbrev S65x65x65 : Shape := ⟨3, ![65, 65, 65]⟩
abbrev S8x128 : Shape := ⟨2, ![8, 128]⟩
abbrev S64x64x64 : Shape := ⟨3, ![64, 64, 64]⟩
abbrev S262144 : Shape := ⟨1, ![262144]⟩
abbrev S262144x1 : Shape := ⟨2, ![262144, 1]⟩
abbrev S262144x8 : Shape := ⟨2, ![262144, 8]⟩
abbrev S262144x256 : Shape := ⟨2, ![262144, 256]⟩
abbrev S2048x8 : Shape := ⟨2, ![2048, 8]⟩
abbrev S2048x256 : Shape := ⟨2, ![2048, 256]⟩
abbrev S2048x128 : Shape := ⟨2, ![2048, 128]⟩
abbrev S2048x1 : Shape := ⟨2, ![2048, 1]⟩
abbrev S1x128 : Shape := ⟨2, ![1, 128]⟩

abbrev nBuf : Space → Nat
  | .hbm => 29
  | .vmem => 6
  | .smem => 0
  | _ => 0

abbrev bufTy : (tb : Table) → Fin (tcTables nBuf tb) → BufTy
  | .hbm, ⟨0, _⟩ => ⟨S65x65x65, .f32⟩
  | .hbm, ⟨1, _⟩ => ⟨S8x128, .f32⟩
  | .hbm, ⟨2, _⟩ => ⟨S8x128, .f32⟩
  | .hbm, ⟨3, _⟩ => ⟨S64x64x64, .f32⟩
  | .hbm, ⟨4, _⟩ => ⟨S262144, .f32⟩
  | .hbm, ⟨5, _⟩ => ⟨S64x64x64, .f32⟩
  | .hbm, ⟨6, _⟩ => ⟨S262144, .f32⟩
  | .hbm, ⟨7, _⟩ => ⟨S64x64x64, .f32⟩
  | .hbm, ⟨8, _⟩ => ⟨S262144, .f32⟩
  | .hbm, ⟨9, _⟩ => ⟨S64x64x64, .f32⟩
  | .hbm, ⟨10, _⟩ => ⟨S262144, .f32⟩
  | .hbm, ⟨11, _⟩ => ⟨S64x64x64, .f32⟩
  | .hbm, ⟨12, _⟩ => ⟨S262144, .f32⟩
  | .hbm, ⟨13, _⟩ => ⟨S64x64x64, .f32⟩
  | .hbm, ⟨14, _⟩ => ⟨S262144, .f32⟩
  | .hbm, ⟨15, _⟩ => ⟨S64x64x64, .f32⟩
  | .hbm, ⟨16, _⟩ => ⟨S262144, .f32⟩
  | .hbm, ⟨17, _⟩ => ⟨S64x64x64, .f32⟩
  | .hbm, ⟨18, _⟩ => ⟨S262144, .f32⟩
  | .hbm, ⟨19, _⟩ => ⟨S262144x1, .f32⟩
  | .hbm, ⟨20, _⟩ => ⟨S262144x1, .f32⟩
  | .hbm, ⟨21, _⟩ => ⟨S262144x1, .f32⟩
  | .hbm, ⟨22, _⟩ => ⟨S262144x1, .f32⟩
  | .hbm, ⟨23, _⟩ => ⟨S262144x1, .f32⟩
  | .hbm, ⟨24, _⟩ => ⟨S262144x1, .f32⟩
  | .hbm, ⟨25, _⟩ => ⟨S262144x1, .f32⟩
  | .hbm, ⟨26, _⟩ => ⟨S262144x1, .f32⟩
  | .hbm, ⟨27, _⟩ => ⟨S262144x8, .f32⟩
  | .hbm, ⟨28, _⟩ => ⟨S262144x256, .f32⟩
  | .local _ .vmem, ⟨0, _⟩ => ⟨S2048x8, .f32⟩
  | .local _ .vmem, ⟨1, _⟩ => ⟨S2048x8, .f32⟩
  | .local _ .vmem, ⟨2, _⟩ => ⟨S8x128, .f32⟩
  | .local _ .vmem, ⟨3, _⟩ => ⟨S8x128, .f32⟩
  | .local _ .vmem, ⟨4, _⟩ => ⟨S2048x256, .f32⟩
  | .local _ .vmem, ⟨5, _⟩ => ⟨S2048x256, .f32⟩
  | _, _ => ⟨S65x65x65, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S65x65x65_S64x64x64_0_0_0 : S65x65x65.Slices ![0, 0, 0] S64x64x64
  shapeCasts_S64x64x64_S262144 : S64x64x64.ShapeCasts S262144
  slices_S65x65x65_S64x64x64_1_0_0 : S65x65x65.Slices ![1, 0, 0] S64x64x64
  slices_S65x65x65_S64x64x64_1_1_0 : S65x65x65.Slices ![1, 1, 0] S64x64x64
  slices_S65x65x65_S64x64x64_0_1_0 : S65x65x65.Slices ![0, 1, 0] S64x64x64
  slices_S65x65x65_S64x64x64_0_0_1 : S65x65x65.Slices ![0, 0, 1] S64x64x64
  slices_S65x65x65_S64x64x64_1_0_1 : S65x65x65.Slices ![1, 0, 1] S64x64x64
  slices_S65x65x65_S64x64x64_1_1_1 : S65x65x65.Slices ![1, 1, 1] S64x64x64
  slices_S65x65x65_S64x64x64_0_1_1 : S65x65x65.Slices ![0, 1, 1] S64x64x64
  bcast_S262144_S262144x1_0 : S262144.BroadcastsInDim S262144x1 (![0] : Fin 1 → Fin S262144x1.rank)
  concatenates_S262144x1_S262144x1_S262144x1_S262144x1_S262144x1_S262144x1_S262144x1_S262144x1_S262144x8_d1 : Shape.Concatenates [S262144x1, S262144x1, S262144x1, S262144x1, S262144x1, S262144x1, S262144x1, S262144x1] S262144x8 1
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  inb_S8x128_S8x128_0_0 : ∀ a, (![0, 0] : Fin 2 → Nat) a + S8x128.size a ≤ S8x128.size a
  h_S8x128 : 0 < S8x128.numel
  slices_S2048x8_o0_0_S2048x1 : S2048x8.Slices ![0, 0] S2048x1
  slices_S8x128_o0_0_S1x128 : S8x128.Slices ![0, 0] S1x128
  broadcasts_S2048x1_S2048x128 : S2048x1.Broadcasts S2048x128
  broadcasts_S1x128_S2048x128 : S1x128.Broadcasts S2048x128
  slices_S2048x8_o0_1_S2048x1 : S2048x8.Slices ![0, 1] S2048x1
  slices_S8x128_o1_0_S1x128 : S8x128.Slices ![1, 0] S1x128
  slices_S2048x8_o0_2_S2048x1 : S2048x8.Slices ![0, 2] S2048x1
  slices_S8x128_o2_0_S1x128 : S8x128.Slices ![2, 0] S1x128
  slices_S2048x8_o0_3_S2048x1 : S2048x8.Slices ![0, 3] S2048x1
  slices_S8x128_o3_0_S1x128 : S8x128.Slices ![3, 0] S1x128
  slices_S2048x8_o0_4_S2048x1 : S2048x8.Slices ![0, 4] S2048x1
  slices_S8x128_o4_0_S1x128 : S8x128.Slices ![4, 0] S1x128
  slices_S2048x8_o0_5_S2048x1 : S2048x8.Slices ![0, 5] S2048x1
  slices_S8x128_o5_0_S1x128 : S8x128.Slices ![5, 0] S1x128
  slices_S2048x8_o0_6_S2048x1 : S2048x8.Slices ![0, 6] S2048x1
  slices_S8x128_o6_0_S1x128 : S8x128.Slices ![6, 0] S1x128
  slices_S2048x8_o0_7_S2048x1 : S2048x8.Slices ![0, 7] S2048x1
  inb_S2048x256_S2048x128_0_0 : ∀ a, (![0, 0] : Fin 2 → Nat) a + S2048x128.size a ≤ S2048x256.size a
  h_S2048x128 : 0 < S2048x128.numel
  inb_S2048x256_S2048x128_0_128 : ∀ a, (![0, 128] : Fin 2 → Nat) a + S2048x128.size a ≤ S2048x256.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x8.size a ≤ S262144x8.size a
  hwx0_0 : ∀ i : grid0.Coords, EltTy.bits .f32 = 32 ∨ (Rect.block (s := S262144x8) S2048x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x128.size a
  hwx0_1 : ∀ i : grid0.Coords, EltTy.bits .f32 = 32 ∨ (Rect.block (s := S8x128) S8x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S262144x256.size a
  hwx0_3 : ∀ i : grid0.Coords, EltTy.bits .f32 = 32 ∨ (Rect.block (s := S262144x256) S2048x256.size (cc0_transform_3 i) (hinb0_3 i)).WholeWords (EltTy.packing .f32)

variable [Facts₀]

abbrev win0_0 : Pipeline.Window sig grid0 :=
  Pipeline.Window.ofSpec (Memref.whole main_v24) S2048x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_cst) S8x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_cst_0) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65x65x65 : Shape := ⟨3, ![65, 65, 65]⟩
abbrev S256x8 : Shape := ⟨2, ![256, 8]⟩
abbrev S64x64x64 : Shape := ⟨3, ![64, 64, 64]⟩
abbrev S262144 : Shape := ⟨1, ![262144]⟩
abbrev S262144x1 : Shape := ⟨2, ![262144, 1]⟩
abbrev S262144x8 : Shape := ⟨2, ![262144, 8]⟩
abbrev S_ : Shape := ⟨0, ![]⟩
abbrev S262144x256 : Shape := ⟨2, ![262144, 256]⟩
abbrev S256x1 : Shape := ⟨2, ![256, 1]⟩
abbrev S256 : Shape := ⟨1, ![256]⟩
abbrev S1x256 : Shape := ⟨2, ![1, 256]⟩

abbrev nBuf : Space → Nat
  | .hbm => 125
  | .vmem => 0
  | .smem => 0
  | _ => 0

abbrev bufTy : (tb : Table) → Fin (tcTables nBuf tb) → BufTy
  | .hbm, ⟨0, _⟩ => ⟨S65x65x65, .f32⟩
  | .hbm, ⟨1, _⟩ => ⟨S256x8, .i1⟩
  | .hbm, ⟨2, _⟩ => ⟨S64x64x64, .f32⟩
  | .hbm, ⟨3, _⟩ => ⟨S262144, .f32⟩
  | .hbm, ⟨4, _⟩ => ⟨S64x64x64, .f32⟩
  | .hbm, ⟨5, _⟩ => ⟨S262144, .f32⟩
  | .hbm, ⟨6, _⟩ => ⟨S64x64x64, .f32⟩
  | .hbm, ⟨7, _⟩ => ⟨S262144, .f32⟩
  | .hbm, ⟨8, _⟩ => ⟨S64x64x64, .f32⟩
  | .hbm, ⟨9, _⟩ => ⟨S262144, .f32⟩
  | .hbm, ⟨10, _⟩ => ⟨S64x64x64, .f32⟩
  | .hbm, ⟨11, _⟩ => ⟨S262144, .f32⟩
  | .hbm, ⟨12, _⟩ => ⟨S64x64x64, .f32⟩
  | .hbm, ⟨13, _⟩ => ⟨S262144, .f32⟩
  | .hbm, ⟨14, _⟩ => ⟨S64x64x64, .f32⟩
  | .hbm, ⟨15, _⟩ => ⟨S262144, .f32⟩
  | .hbm, ⟨16, _⟩ => ⟨S64x64x64, .f32⟩
  | .hbm, ⟨17, _⟩ => ⟨S262144, .f32⟩
  | .hbm, ⟨18, _⟩ => ⟨S262144x1, .f32⟩
  | .hbm, ⟨19, _⟩ => ⟨S262144x1, .f32⟩
  | .hbm, ⟨20, _⟩ => ⟨S262144x1, .f32⟩
  | .hbm, ⟨21, _⟩ => ⟨S262144x1, .f32⟩
  | .hbm, ⟨22, _⟩ => ⟨S262144x1, .f32⟩
  | .hbm, ⟨23, _⟩ => ⟨S262144x1, .f32⟩
  | .hbm, ⟨24, _⟩ => ⟨S262144x1, .f32⟩
  | .hbm, ⟨25, _⟩ => ⟨S262144x1, .f32⟩
  | .hbm, ⟨26, _⟩ => ⟨S262144x8, .f32⟩
  | .hbm, ⟨27, _⟩ => ⟨S_, .f32⟩
  | .hbm, ⟨28, _⟩ => ⟨S262144x256, .f32⟩
  | .hbm, ⟨29, _⟩ => ⟨S262144x1, .f32⟩
  | .hbm, ⟨30, _⟩ => ⟨S256x1, .i1⟩
  | .hbm, ⟨31, _⟩ => ⟨S256, .i1⟩
  | .hbm, ⟨32, _⟩ => ⟨S1x256, .i1⟩
  | .hbm, ⟨33, _⟩ => ⟨S_, .f32⟩
  | .hbm, ⟨34, _⟩ => ⟨S262144x1, .f32⟩
  | .hbm, ⟨35, _⟩ => ⟨S262144x1, .f32⟩
  | .hbm, ⟨36, _⟩ => ⟨S262144x256, .i1⟩
  | .hbm, ⟨37, _⟩ => ⟨S262144x256, .f32⟩
  | .hbm, ⟨38, _⟩ => ⟨S262144x256, .f32⟩
  | .hbm, ⟨39, _⟩ => ⟨S262144x256, .f32⟩
  | .hbm, ⟨40, _⟩ => ⟨S262144x256, .f32⟩
  | .hbm, ⟨41, _⟩ => ⟨S262144x1, .f32⟩
  | .hbm, ⟨42, _⟩ => ⟨S256x1, .i1⟩
  | .hbm, ⟨43, _⟩ => ⟨S256, .i1⟩
  | .hbm, ⟨44, _⟩ => ⟨S1x256, .i1⟩
  | .hbm, ⟨45, _⟩ => ⟨S_, .f32⟩
  | .hbm, ⟨46, _⟩ => ⟨S262144x1, .f32⟩
  | .hbm, ⟨47, _⟩ => ⟨S262144x1, .f32⟩
  | .hbm, ⟨48, _⟩ => ⟨S262144x256, .i1⟩
  | .hbm, ⟨49, _⟩ => ⟨S262144x256, .f32⟩
  | .hbm, ⟨50, _⟩ => ⟨S262144x256, .f32⟩
  | .hbm, ⟨51, _⟩ => ⟨S262144x256, .f32⟩
  | .hbm, ⟨52, _⟩ => ⟨S262144x256, .f32⟩
  | .hbm, ⟨53, _⟩ => ⟨S262144x1, .f32⟩
  | .hbm, ⟨54, _⟩ => ⟨S256x1, .i1⟩
  | .hbm, ⟨55, _⟩ => ⟨S256, .i1⟩
  | .hbm, ⟨56, _⟩ => ⟨S1x256, .i1⟩
  | .hbm, ⟨57, _⟩ => ⟨S_, .f32⟩
  | .hbm, ⟨58, _⟩ => ⟨S262144x1, .f32⟩
  | .hbm, ⟨59, _⟩ => ⟨S262144x1, .f32⟩
  | .hbm, ⟨60, _⟩ => ⟨S262144x256, .i1⟩
  | .hbm, ⟨61, _⟩ => ⟨S262144x256, .f32⟩
  | .hbm, ⟨62, _⟩ => ⟨S262144x256, .f32⟩
  | .hbm, ⟨63, _⟩ => ⟨S262144x256, .f32⟩
  | .hbm, ⟨64, _⟩ => ⟨S262144x256, .f32⟩
  | .hbm, ⟨65, _⟩ => ⟨S262144x1, .f32⟩
  | .hbm, ⟨66, _⟩ => ⟨S256x1, .i1⟩
  | .hbm, ⟨67, _⟩ => ⟨S256, .i1⟩
  | .hbm, ⟨68, _⟩ => ⟨S1x256, .i1⟩
  | .hbm, ⟨69, _⟩ => ⟨S_, .f32⟩
  | .hbm, ⟨70, _⟩ => ⟨S262144x1, .f32⟩
  | .hbm, ⟨71, _⟩ => ⟨S262144x1, .f32⟩
  | .hbm, ⟨72, _⟩ => ⟨S262144x256, .i1⟩
  | .hbm, ⟨73, _⟩ => ⟨S262144x256, .f32⟩
  | .hbm, ⟨74, _⟩ => ⟨S262144x256, .f32⟩
  | .hbm, ⟨75, _⟩ => ⟨S262144x256, .f32⟩
  | .hbm, ⟨76, _⟩ => ⟨S262144x256, .f32⟩
  | .hbm, ⟨77, _⟩ => ⟨S262144x1, .f32⟩
  | .hbm, ⟨78, _⟩ => ⟨S256x1, .i1⟩
  | .hbm, ⟨79, _⟩ => ⟨S256, .i1⟩
  | .hbm, ⟨80, _⟩ => ⟨S1x256, .i1⟩
  | .hbm, ⟨81, _⟩ => ⟨S_, .f32⟩
  | .hbm, ⟨82, _⟩ => ⟨S262144x1, .f32⟩
  | .hbm, ⟨83, _⟩ => ⟨S262144x1, .f32⟩
  | .hbm, ⟨84, _⟩ => ⟨S262144x256, .i1⟩
  | .hbm, ⟨85, _⟩ => ⟨S262144x256, .f32⟩
  | .hbm, ⟨86, _⟩ => ⟨S262144x256, .f32⟩
  | .hbm, ⟨87, _⟩ => ⟨S262144x256, .f32⟩
  | .hbm, ⟨88, _⟩ => ⟨S262144x256, .f32⟩
  | .hbm, ⟨89, _⟩ => ⟨S262144x1, .f32⟩
  | .hbm, ⟨90, _⟩ => ⟨S256x1, .i1⟩
  | .hbm, ⟨91, _⟩ => ⟨S256, .i1⟩
  | .hbm, ⟨92, _⟩ => ⟨S1x256, .i1⟩
  | .hbm, ⟨93, _⟩ => ⟨S_, .f32⟩
  | .hbm, ⟨94, _⟩ => ⟨S262144x1, .f32⟩
  | .hbm, ⟨95, _⟩ => ⟨S262144x1, .f32⟩
  | .hbm, ⟨96, _⟩ => ⟨S262144x256, .i1⟩
  | .hbm, ⟨97, _⟩ => ⟨S262144x256, .f32⟩
  | .hbm, ⟨98, _⟩ => ⟨S262144x256, .f32⟩
  | .hbm, ⟨99, _⟩ => ⟨S262144x256, .f32⟩
  | .hbm, ⟨100, _⟩ => ⟨S262144x256, .f32⟩
  | .hbm, ⟨101, _⟩ => ⟨S262144x1, .f32⟩
  | .hbm, ⟨102, _⟩ => ⟨S256x1, .i1⟩
  | .hbm, ⟨103, _⟩ => ⟨S256, .i1⟩
  | .hbm, ⟨104, _⟩ => ⟨S1x256, .i1⟩
  | .hbm, ⟨105, _⟩ => ⟨S_, .f32⟩
  | .hbm, ⟨106, _⟩ => ⟨S262144x1, .f32⟩
  | .hbm, ⟨107, _⟩ => ⟨S262144x1, .f32⟩
  | .hbm, ⟨108, _⟩ => ⟨S262144x256, .i1⟩
  | .hbm, ⟨109, _⟩ => ⟨S262144x256, .f32⟩
  | .hbm, ⟨110, _⟩ => ⟨S262144x256, .f32⟩
  | .hbm, ⟨111, _⟩ => ⟨S262144x256, .f32⟩
  | .hbm, ⟨112, _⟩ => ⟨S262144x256, .f32⟩
  | .hbm, ⟨113, _⟩ => ⟨S262144x1, .f32⟩
  | .hbm, ⟨114, _⟩ => ⟨S256x1, .i1⟩
  | .hbm, ⟨115, _⟩ => ⟨S256, .i1⟩
  | .hbm, ⟨116, _⟩ => ⟨S1x256, .i1⟩
  | .hbm, ⟨117, _⟩ => ⟨S_, .f32⟩
  | .hbm, ⟨118, _⟩ => ⟨S262144x1, .f32⟩
  | .hbm, ⟨119, _⟩ => ⟨S262144x1, .f32⟩
  | .hbm, ⟨120, _⟩ => ⟨S262144x256, .i1⟩
  | .hbm, ⟨121, _⟩ => ⟨S262144x256, .f32⟩
  | .hbm, ⟨122, _⟩ => ⟨S262144x256, .f32⟩
  | .hbm, ⟨123, _⟩ => ⟨S262144x256, .f32⟩
  | .hbm, ⟨124, _⟩ => ⟨S262144x256, .f32⟩
  | _, _ => ⟨S65x65x65, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_cst : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_cst_0 : Ref sig .tc := ⟨.hbm, 33, rfl⟩
abbrev main_v30 : Ref sig .tc := ⟨.hbm, 34, rfl⟩
abbrev main_v31 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_1 : Ref sig .tc := ⟨.hbm, 45, rfl⟩
abbrev main_v38 : Ref sig .tc := ⟨.hbm, 46, rfl⟩
abbrev main_v39 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_2 : Ref sig .tc := ⟨.hbm, 57, rfl⟩
abbrev main_v46 : Ref sig .tc := ⟨.hbm, 58, rfl⟩
abbrev main_v47 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_3 : Ref sig .tc := ⟨.hbm, 69, rfl⟩
abbrev main_v54 : Ref sig .tc := ⟨.hbm, 70, rfl⟩
abbrev main_v55 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_4 : Ref sig .tc := ⟨.hbm, 81, rfl⟩
abbrev main_v62 : Ref sig .tc := ⟨.hbm, 82, rfl⟩
abbrev main_v63 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_5 : Ref sig .tc := ⟨.hbm, 93, rfl⟩
abbrev main_v70 : Ref sig .tc := ⟨.hbm, 94, rfl⟩
abbrev main_v71 : Ref sig .tc := ⟨.hbm, 95, rfl⟩
abbrev main_call5_v0 : Ref sig .tc := ⟨.hbm, 96, rfl⟩
abbrev main_call5_v1 : Ref sig .tc := ⟨.hbm, 97, rfl⟩
abbrev main_call5_v2 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_6 : Ref sig .tc := ⟨.hbm, 105, rfl⟩
abbrev main_v78 : Ref sig .tc := ⟨.hbm, 106, rfl⟩
abbrev main_v79 : Ref sig .tc := ⟨.hbm, 107, rfl⟩
abbrev main_call6_v0 : Ref sig .tc := ⟨.hbm, 108, rfl⟩
abbrev main_call6_v1 : Ref sig .tc := ⟨.hbm, 109, rfl⟩
abbrev main_call6_v2 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_7 : Ref sig .tc := ⟨.hbm, 117, rfl⟩
abbrev main_v86 : Ref sig .tc := ⟨.hbm, 118, rfl⟩
abbrev main_v87 : Ref sig .tc := ⟨.hbm, 119, rfl⟩
abbrev main_call7_v0 : Ref sig .tc := ⟨.hbm, 120, rfl⟩
abbrev main_call7_v1 : Ref sig .tc := ⟨.hbm, 121, rfl⟩
abbrev main_call7_v2 : Ref sig .tc := ⟨.hbm, 122, rfl⟩
abbrev main_v88 : Ref sig .tc := ⟨.hbm, 123, rfl⟩
abbrev main_v89 : Ref sig .tc := ⟨.hbm, 124, rfl⟩

abbrev nD : Nat := 1
abbrev τ : Topo := Topo.v7x

variable {F : FTy → Type} [FloatOps F]

class Facts₀ : Prop where
  slices_S65x65x65_S64x64x64_0_0_0 : S65x65x65.Slices ![0, 0, 0] S64x64x64
  shapeCasts_S64x64x64_S262144 : S64x64x64.ShapeCasts S262144
  slices_S65x65x65_S64x64x64_1_0_0 : S65x65x65.Slices ![1, 0, 0] S64x64x64
  slices_S65x65x65_S64x64x64_1_1_0 : S65x65x65.Slices ![1, 1, 0] S64x64x64
  slices_S65x65x65_S64x64x64_0_1_0 : S65x65x65.Slices ![0, 1, 0] S64x64x64
  slices_S65x65x65_S64x64x64_0_0_1 : S65x65x65.Slices ![0, 0, 1] S64x64x64
  slices_S65x65x65_S64x64x64_1_0_1 : S65x65x65.Slices ![1, 0, 1] S64x64x64
  slices_S65x65x65_S64x64x64_1_1_1 : S65x65x65.Slices ![1, 1, 1] S64x64x64
  slices_S65x65x65_S64x64x64_0_1_1 : S65x65x65.Slices ![0, 1, 1] S64x64x64
  bcast_S262144_S262144x1_0 : S262144.BroadcastsInDim S262144x1 (![0] : Fin 1 → Fin S262144x1.rank)
  concatenates_S262144x1_S262144x1_S262144x1_S262144x1_S262144x1_S262144x1_S262144x1_S262144x1_S262144x8_d1 : Shape.Concatenates [S262144x1, S262144x1, S262144x1, S262144x1, S262144x1, S262144x1, S262144x1, S262144x1] S262144x8 1
  bcast_S_S262144x256 : S_.BroadcastsInDim S262144x256 (![] : Fin 0 → Fin S262144x256.rank)
  slices_S262144x8_S262144x1_0_0 : S262144x8.Slices ![0, 0] S262144x1
  slices_S256x8_S256x1_0_0 : S256x8.Slices ![0, 0] S256x1
  shapeCasts_S256x1_S256 : S256x1.ShapeCasts S256
  bcast_S256_S1x256_1 : S256.BroadcastsInDim S1x256 (![1] : Fin 1 → Fin S1x256.rank)
  bcast_S_S262144x1 : S_.BroadcastsInDim S262144x1 (![] : Fin 0 → Fin S262144x1.rank)
  bcast_S1x256_S262144x256_0_1 : S1x256.BroadcastsInDim S262144x256 (![0, 1] : Fin 2 → Fin S262144x256.rank)
  bcast_S262144x1_S262144x256_0_1 : S262144x1.BroadcastsInDim S262144x256 (![0, 1] : Fin 2 → Fin S262144x256.rank)
  slices_S262144x8_S262144x1_0_1 : S262144x8.Slices ![0, 1] S262144x1
  slices_S256x8_S256x1_0_1 : S256x8.Slices ![0, 1] S256x1
  slices_S262144x8_S262144x1_0_2 : S262144x8.Slices ![0, 2] S262144x1
  slices_S256x8_S256x1_0_2 : S256x8.Slices ![0, 2] S256x1
  slices_S262144x8_S262144x1_0_3 : S262144x8.Slices ![0, 3] S262144x1
  slices_S256x8_S256x1_0_3 : S256x8.Slices ![0, 3] S256x1
  slices_S262144x8_S262144x1_0_4 : S262144x8.Slices ![0, 4] S262144x1
  slices_S256x8_S256x1_0_4 : S256x8.Slices ![0, 4] S256x1
  slices_S262144x8_S262144x1_0_5 : S262144x8.Slices ![0, 5] S262144x1
  slices_S256x8_S256x1_0_5 : S256x8.Slices ![0, 5] S256x1
  slices_S262144x8_S262144x1_0_6 : S262144x8.Slices ![0, 6] S262144x1
  slices_S256x8_S256x1_0_6 : S256x8.Slices ![0, 6] S256x1
  slices_S262144x8_S262144x1_0_7 : S262144x8.Slices ![0, 7] S262144x1
  slices_S256x8_S256x1_0_7 : S256x8.Slices ![0, 7] S256x1

variable [Facts₀]

class Facts : Prop extends Facts₀ where

variable [Facts]
-- ==== Proof.KFrameABits.lean ====
/-
  The frame of the kernel program: its @main is 27 host operations (two constant tables; eight shifted slices of the
  argument, each flattened and stood up as a column; the eight columns concatenated into the corner array) followed by
  one launch over a grid of 128 points. At point t the body is handed block t (2048 cells × 8) of the corner array and the
  two whole tables, and stores two 2048 × 128 halves that together tile its 2048 × 256 output block; the block is written
  back at every point, and the blocks of the 128 points tile the result array.

  No host operation writes the argument array, so the launch finds it as it was; the launch never stages it, so it
  ends unchanged. What each output block holds after the body is the overlay of the two stored halves, each a pure
  function of the three input blocks (`out3`); the loads the body makes of its own output buffer are never used.
-/
import proofs.«179041_j44753559224581_2_alg».proof.Proof.Gen.Kernel.Launch
import proofs.«179041_j44753559224581_2_alg».proof.Proof.Gen.Kernel.Skeleton
import proofs.«179041_j44753559224581_2_alg».proof.Proof.Gen.Kernel.Points
import Idealize.ShloMosaic.Lib.Pipeline.FrameBody
import Idealize.ShloMosaic.Lib.Ring
import Idealize.ShloMosaic.Lib.Tactic
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- Core `c`'s buffers when the launch is entered: the host operations folded over the launch memory. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument array: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.reshape_writes,
      StableHlo.nary_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- The argument array is staged by no window: the frame run's post leaves it as the launch found it, which is as
    it was. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
      ((h c).2 main_arg0 (Pipeline.mem_restRefs_of main_arg0 (by decide) (by decide))).trans (V_main_arg0 m c)) h

/-! ## The body's accesses -/

abbrev rIn : Rect S2048x8 := Rect.unit (s := S2048x8) ![0, 0] S2048x8.size inb_S2048x8_S2048x8_0_0
abbrev rTab : Rect S8x128 := Rect.unit (s := S8x128) ![0, 0] S8x128.size inb_S8x128_S8x128_0_0
abbrev rLo : Rect S2048x256 := Rect.unit (s := S2048x256) ![0, 0] S2048x128.size inb_S2048x256_S2048x128_0_0
abbrev rHi : Rect S2048x256 := Rect.unit (s := S2048x256) ![0, 128] S2048x128.size inb_S2048x256_S2048x128_0_128

/-! ## What the body leaves in the output window's buffer -/

/-- The low half's stored value, from the three input blocks. -/
def payLo (x0 : Vec F S2048x8 .f32) (x1 x2 : Vec F S8x128 .f32) : FVec F S2048x128 .f32 :=
  k0_pay3 (k0_pay5 (View.ld x0 rIn)) (View.ld x1 rTab) (View.ld x2 rTab)
    (k0_pay6 (View.ld x0 rIn) (View.ld x1 rTab) (View.ld x2 rTab)) (k0_pay7 (View.ld x0 rIn)) (k0_pay8 (View.ld x1 rTab))
/-- The high half's stored value, from the three input blocks. -/
def payHi (x0 : Vec F S2048x8 .f32) (x1 x2 : Vec F S8x128 .f32) : FVec F S2048x128 .f32 :=
  k0_pay4 (k0_pay5 (View.ld x0 rIn)) (View.ld x1 rTab) (View.ld x2 rTab)
    (k0_pay6 (View.ld x0 rIn) (View.ld x1 rTab) (View.ld x2 rTab)) (k0_pay7 (View.ld x0 rIn)) (k0_pay8 (View.ld x1 rTab))

/-- The output block after the body: its two stores as pieces, the later one first. -/
def out3 (x0 : Vec F S2048x8 .f32) (x1 x2 : Vec F S8x128 .f32) : Vec F S2048x256 .f32 :=
  View.canon [⟨rHi, payHi x0 x1 x2⟩, ⟨rLo, payLo x0 x1 x2⟩]

/-- The two halves tile the block, so they cover it. -/
theorem cover3 (p0 p1 : Vec F S2048x128 .f32) (y : S2048x256.Idx) :
    ∃ pc ∈ ([⟨rHi, p0⟩, ⟨rLo, p1⟩] : List (View.Piece (Elt F) S2048x256 .f32)), y ∈ pc.1.set :=
  View.cover_of_tiled [⟨rHi, p0⟩, ⟨rLo, p1⟩] S2048x128.size (by rfl) y

end Cert.Kernel.Hand

end
-- ==== Proof.KFrameBBits.lean ====
/-
  The kernel body's triple and the frame run of the kernel program. The body, on whole staging buffers holding the
  three input blocks and an output buffer holding anything, returns with the inputs as they were and the output at the
  overlay of its two stored halves (`out3`); the launch theorem then runs @main, and the argument array, which no host
  operation writes and no window stages, ends as it began.
-/
import proofs.«179041_j44753559224581_2_alg».proof.Proof.KFrameABits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
/-- The body on whole staging buffers: the inputs at `x0`, `x1`, `x2` and the output at anything; it returns with the
    inputs as they were and the output at `out3 x0 x1 x2`. -/
theorem sound_kernel (c : Dev nD) (E : Set ℕ) (i : grid0.Coords) (arg1 : Memref sig .tc .vmem S2048x8 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S2048x256 .f32) (harg4 : arg4.IsWhole)
    (x0 : Vec F S2048x8 .f32) (x1 : Vec F S8x128 .f32) (x2 : Vec F S8x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3 x0 x1 x2)) -∗ K ⟨⟩))
      ⊢ wp frame (wpE (defs₀ (F := F)) Variants.none c none) E (cc0__kernel i arg1 harg1 arg2 harg2 arg3 harg3 arg4 harg4) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _ _)

/-! ## The proof data -/

/-- The proof data of the launch on core `c`: the arrays as the launch finds them; after the body at point `t` each
    input buffer at its block and the output buffer at `out3` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = out3 (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, with every window's array at what the proof data computes and
    every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere, and leaves the argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Hand

end
-- ==== Proof.KFrameAIdeal.lean ====
/-
  The frame of the kernel program: its @main is 27 host operations (two constant tables; eight shifted slices of the
  argument, each flattened and stood up as a column; the eight columns concatenated into the corner array) followed by
  one launch over a grid of 128 points. At point t the body is handed block t (2048 cells × 8) of the corner array and the
  two whole tables, and stores two 2048 × 128 halves that together tile its 2048 × 256 output block; the block is written
  back at every point, and the blocks of the 128 points tile the result array.

  No host operation writes the argument array, so the launch finds it as it was; the launch never stages it, so it
  ends unchanged. What each output block holds after the body is the overlay of the two stored halves, each a pure
  function of the three input blocks (`out3`); the loads the body makes of its own output buffer are never used.
-/
import proofs.«179041_j44753559224581_2_alg».proof.Proof.Gen.KernelIdeal.Launch
import proofs.«179041_j44753559224581_2_alg».proof.Proof.Gen.KernelIdeal.Skeleton
import proofs.«179041_j44753559224581_2_alg».proof.Proof.Gen.KernelIdeal.Points
import Idealize.ShloMosaic.Lib.Pipeline.FrameBody
import Idealize.ShloMosaic.Lib.Ring
import Idealize.ShloMosaic.Lib.Tactic
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- Core `c`'s buffers when the launch is entered: the host operations folded over the launch memory. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument array: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.reshape_writes,
      StableHlo.nary_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- The argument array is staged by no window: the frame run's post leaves it as the launch found it, which is as
    it was. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
      ((h c).2 main_arg0 (Pipeline.mem_restRefs_of main_arg0 (by decide) (by decide))).trans (V_main_arg0 m c)) h

/-! ## The body's accesses -/

abbrev rIn : Rect S2048x8 := Rect.unit (s := S2048x8) ![0, 0] S2048x8.size inb_S2048x8_S2048x8_0_0
abbrev rTab : Rect S8x128 := Rect.unit (s := S8x128) ![0, 0] S8x128.size inb_S8x128_S8x128_0_0
abbrev rLo : Rect S2048x256 := Rect.unit (s := S2048x256) ![0, 0] S2048x128.size inb_S2048x256_S2048x128_0_0
abbrev rHi : Rect S2048x256 := Rect.unit (s := S2048x256) ![0, 128] S2048x128.size inb_S2048x256_S2048x128_0_128

/-! ## What the body leaves in the output window's buffer -/

/-- The low half's stored value, from the three input blocks. -/
def payLo (x0 : Vec F S2048x8 .f32) (x1 x2 : Vec F S8x128 .f32) : FVec F S2048x128 .f32 :=
  k0_pay3 (k0_pay5 (View.ld x0 rIn)) (View.ld x1 rTab) (View.ld x2 rTab)
    (k0_pay6 (View.ld x0 rIn) (View.ld x1 rTab) (View.ld x2 rTab)) (k0_pay7 (View.ld x0 rIn)) (k0_pay8 (View.ld x1 rTab))
/-- The high half's stored value, from the three input blocks. -/
def payHi (x0 : Vec F S2048x8 .f32) (x1 x2 : Vec F S8x128 .f32) : FVec F S2048x128 .f32 :=
  k0_pay4 (k0_pay5 (View.ld x0 rIn)) (View.ld x1 rTab) (View.ld x2 rTab)
    (k0_pay6 (View.ld x0 rIn) (View.ld x1 rTab) (View.ld x2 rTab)) (k0_pay7 (View.ld x0 rIn)) (k0_pay8 (View.ld x1 rTab))

/-- The output block after the body: its two stores as pieces, the later one first. -/
def out3 (x0 : Vec F S2048x8 .f32) (x1 x2 : Vec F S8x128 .f32) : Vec F S2048x256 .f32 :=
  View.canon [⟨rHi, payHi x0 x1 x2⟩, ⟨rLo, payLo x0 x1 x2⟩]

/-- The two halves tile the block, so they cover it. -/
theorem cover3 (p0 p1 : Vec F S2048x128 .f32) (y : S2048x256.Idx) :
    ∃ pc ∈ ([⟨rHi, p0⟩, ⟨rLo, p1⟩] : List (View.Piece (Elt F) S2048x256 .f32)), y ∈ pc.1.set :=
  View.cover_of_tiled [⟨rHi, p0⟩, ⟨rLo, p1⟩] S2048x128.size (by rfl) y

end Cert.KernelIdeal.Hand

end
-- ==== Proof.KFrameBIdeal.lean ====
/-
  The kernel body's triple and the frame run of the kernel program. The body, on whole staging buffers holding the
  three input blocks and an output buffer holding anything, returns with the inputs as they were and the output at the
  overlay of its two stored halves (`out3`); the launch theorem then runs @main, and the argument array, which no host
  operation writes and no window stages, ends as it began.
-/
import proofs.«179041_j44753559224581_2_alg».proof.Proof.KFrameAIdeal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
/-- The body on whole staging buffers: the inputs at `x0`, `x1`, `x2` and the output at anything; it returns with the
    inputs as they were and the output at `out3 x0 x1 x2`. -/
theorem sound_kernel (c : Dev nD) (E : Set ℕ) (i : grid0.Coords) (arg1 : Memref sig .tc .vmem S2048x8 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S2048x256 .f32) (harg4 : arg4.IsWhole)
    (x0 : Vec F S2048x8 .f32) (x1 : Vec F S8x128 .f32) (x2 : Vec F S8x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3 x0 x1 x2)) -∗ K ⟨⟩))
      ⊢ wp frame (wpE (defs₀ (F := F)) Variants.none c none) E (cc0__kernel i arg1 harg1 arg2 harg2 arg3 harg3 arg4 harg4) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _ _)

/-! ## The proof data -/

/-- The proof data of the launch on core `c`: the arrays as the launch finds them; after the body at point `t` each
    input buffer at its block and the output buffer at `out3` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = out3 (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, with every window's array at what the proof data computes and
    every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere, and leaves the argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Hand

end
-- ==== Proof.KerTermIdeal.lean ====
/-
  The kernel program's host-side values as pure terms of its argument: the corner array its host operations build
  before the launch, and the two affine tables (8 × 128 each) it passes to the kernel.
-/
import proofs.«179041_j44753559224581_2_alg».proof.Proof.Gen.KernelIdeal

noncomputable section

namespace Cert.KernelIdeal.Hand

open Idealize.ShloMosaic Cert.KernelIdeal
open Cert.KernelIdeal.Facts₀

variable {F : FTy → Type} [FloatOps F]

/-- Corner `off` of every cell as a column: the occupancy grid shifted by `off` and cut to 64×64×64, flattened cell by
    cell in row-major order, then stood up as a one-column array. -/
def cornerCol (x : FVec F S65x65x65 .f32) (off : Fin 3 → Nat) (h : S65x65x65.Slices off S64x64x64) : FVec F S262144x1 .f32 :=
  broadcastInDim S262144x1 ![0] bcast_S262144_S262144x1_0
    (shapeCast S262144 (extractStridedSlice S64x64x64 off x h) shapeCasts_S64x64x64_S262144)

/-- The corner array (cells × 8) of an occupancy grid: the eight corner columns side by side, in the corners' order
    (0,0,0), (1,0,0), (1,1,0), (0,1,0), (0,0,1), (1,0,1), (1,1,1), (0,1,1). -/
def corners (x : FVec F S65x65x65 .f32) : FVec F S262144x8 .f32 :=
  concatenate S262144x8 1
    [⟨S262144x1, cornerCol x ![0, 0, 0] slices_S65x65x65_S64x64x64_0_0_0⟩,
     ⟨S262144x1, cornerCol x ![1, 0, 0] slices_S65x65x65_S64x64x64_1_0_0⟩,
     ⟨S262144x1, cornerCol x ![1, 1, 0] slices_S65x65x65_S64x64x64_1_1_0⟩,
     ⟨S262144x1, cornerCol x ![0, 1, 0] slices_S65x65x65_S64x64x64_0_1_0⟩,
     ⟨S262144x1, cornerCol x ![0, 0, 1] slices_S65x65x65_S64x64x64_0_0_1⟩,
     ⟨S262144x1, cornerCol x ![1, 0, 1] slices_S65x65x65_S64x64x64_1_0_1⟩,
     ⟨S262144x1, cornerCol x ![1, 1, 1] slices_S65x65x65_S64x64x64_1_1_1⟩,
     ⟨S262144x1, cornerCol x ![0, 1, 1] slices_S65x65x65_S64x64x64_0_1_1⟩]
    concatenates_S262144x1_S262144x1_S262144x1_S262144x1_S262144x1_S262144x1_S262144x1_S262144x1_S262144x8_d1

/-- The constant terms' table: row c, lane l holds 1 − (bit c of l) for c < 7, and 0 in the padding row 7. -/
def c0tab : Vec F S8x128 .f32 := fun i => FloatOps.ofBits .f32 (lit0 (S8x128.rowMajor i))

/-- The slopes' table: row c, lane l holds 2·(bit c of l) − 1 for c < 7, and 0 in the padding row 7. -/
def c1tab : Vec F S8x128 .f32 := fun i => FloatOps.ofBits .f32 (lit1 (S8x128.rowMajor i))

end Cert.KernelIdeal.Hand

end
-- ==== Proof.TopoSpec.lean ====
/-
  The mathematics shared by both programs, stated with no program in sight.

  A cell of the 64×64×64 grid has eight corner occupancies p₀ … p₇ (extended reals here). A topology case is a
  number t < 256 whose bit c says whether corner c lies inside. The weight of case t for the cell is the product over the
  corners, taken in their order and starting from one, of p_c when bit c of t is set and of 1 − p_c when it is not.

  One program computes each factor by a select on the bit; the other computes it as c0 + p · c1 from two tables with
  (c0, c1) = (0, 1) on a set bit and (1, −1) on a clear one. On every extended real 0 + p · 1 = p and
  1 + p · (−1) = 1 − p, so the two factors agree with no hypothesis on p (`affine_set`, `affine_clear`).
-/
import Idealize.ShloMosaic.PureOps.Ideal
import Idealize.ShloMosaic.PureOps.Ideal.Laws
import Idealize.ShloMosaic.Lib.ValueIdx

noncomputable section

namespace Cert.Topo

open Idealize.ShloMosaic Idealize.ShloMosaic.ValueIdx

/-- One corner's factor in a case's weight: the corner's occupancy `p` when the case has the corner inside (`b` true),
    the complement `1 - p` otherwise. -/
def factor (b : Bool) (p : EReal) : EReal := if b then p else 1 - p

/-- The weight of case `t` for a cell with corner occupancies `P 0 … P 7`: starting from one, multiplied in the
    corners' order by each corner's factor, corner `c` being inside exactly when bit `c` of `t` is set. -/
def weight (P : Fin 8 → EReal) (t : Nat) : EReal :=
  ((((((((1 : EReal) * factor (t.testBit 0) (P 0)) * factor (t.testBit 1) (P 1)) * factor (t.testBit 2) (P 2))
    * factor (t.testBit 3) (P 3)) * factor (t.testBit 4) (P 4)) * factor (t.testBit 5) (P 5))
    * factor (t.testBit 6) (P 6)) * factor (t.testBit 7) (P 7)

/-- Entry `(n, t)` of the topology array of a corner array `C` (cells × 8): the weight of case `t` for cell `n`. -/
def topo (C : (⟨2, ![262144, 8]⟩ : Shape).Idx → EReal) (n : Fin 262144) (t : Fin 256) : EReal :=
  weight (fun c => C (ix2 n c)) t.val

/-- The topology array as one function of its index. -/
def topoArr (C : (⟨2, ![262144, 8]⟩ : Shape).Idx → EReal) : (⟨2, ![262144, 256]⟩ : Shape).Idx → EReal :=
  fun i => topo C ⟨(i 0).val, idx2_lt0 i⟩ ⟨(i 1).val, idx2_lt1 i⟩

theorem topoArr_ix2 (C : (⟨2, ![262144, 8]⟩ : Shape).Idx → EReal) (n : Fin 262144) (t : Fin 256) :
    topoArr C (ix2 n t) = topo C n t := rfl

/-- An array that is the topology entry by entry is the topology array. -/
theorem eq_topoArr (C : (⟨2, ![262144, 8]⟩ : Shape).Idx → EReal) (A : (⟨2, ![262144, 256]⟩ : Shape).Idx → EReal)
    (h : ∀ (n : Fin 262144) (t : Fin 256), A (ix2 n t) = topo C n t) : A = topoArr C := by
  funext i
  rw [eq_ix2 i]
  exact h _ _

/-! ## The three float words of the programs, as extended reals -/

theorem word_one : Ideal.ofBits .f32 0x3F800000#32 = (1 : EReal) := by
  simp [Ideal.ofBits, Ideal.ieee, -EReal.coe_mul]; norm_num

theorem word_neg_one : Ideal.ofBits .f32 0xBF800000#32 = (-1 : EReal) := by
  simp [Ideal.ofBits, Ideal.ieee, -EReal.coe_mul]; norm_num

theorem word_zero : Ideal.ofBits .f32 0x00000000#32 = (0 : EReal) := Ideal.ofBits_zero_f32

/-! ## The law joining the affine and the selected factor -/

/-- On a set bit the tables hold (0, 1): `0 + p · 1 = p`, on every extended real. -/
theorem affine_set (p : EReal) : (0 : EReal) + p * 1 = factor true p := by
  simp [factor]

/-- On a clear bit the tables hold (1, −1): `1 + p · (−1) = 1 − p`, on every extended real. -/
theorem affine_clear (p : EReal) : (1 : EReal) + p * (-1) = factor false p := by
  simp [factor, sub_eq_add_neg]

end Cert.Topo

end
-- ==== Proof.KValueBody.lean ====
/-
  The kernel body's value, read one entry at a time.

  A block holds 2048 cells (rows) and their 8 corner occupancies (columns). For lane l < 128 the body multiplies,
  starting from one and in the corners' order, the seven affine factors c0[c, l] + p_c · c1[c, l] (c = 0 … 6, p_c the
  cell's occupancy at corner c, c0 and c1 two 8 × 128 tables), and then multiplies once more by 1 − p₇ (the lower
  128 lanes of the result) or by p₇ (the upper 128 lanes). When the tables hold (0, 1) where bit c of l is set and
  (1, −1) where it is clear, each affine factor is the corner's factor in the weight of case l, the last factor is
  corner 7's factor for a clear bit (case l, l < 128) or a set bit (case l + 128), and the product is the weight.

  Every operation of the body is either pointwise (read at an index, it is the same operation on the entries) or a
  layout operation: a row of a table repeated down the 2048 rows, a column of the block repeated across the 128 lanes.
-/
import proofs.«179041_j44753559224581_2_alg».proof.Proof.Gen.KernelIdeal.Skeleton
import proofs.«179041_j44753559224581_2_alg».proof.Proof.TopoSpec
import Idealize.ShloMosaic.Lib.ValueIdx
import Idealize.ShloMosaic.Lib.ValueLayout
import Idealize.ShloMosaic.Lib.Pipeline.Value

noncomputable section

namespace Cert.KernelIdeal.HandValue

open Idealize.ShloMosaic Idealize.ShloMosaic.ValueIdx Cert.KernelIdeal Cert.KernelIdeal.Gen

/-! ## Layout operations read at an entry -/

section Layout
variable {α : Type}

/-- A column `[a, 1]` repeated across `b` lanes reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `o` of an 8 × 128 table, repeated down the 2048 rows, reads at `(r, l)` the table's entry `(o, l)`. -/
theorem row_read (o : Nat) (x : S8x128.Idx → α) (hs : S8x128.Slices ![o, 0] S1x128)
    (hb : S1x128.Broadcasts S2048x128) (r : Fin 2048) (l : Fin 128) (c : Fin 8) (hc : c.val = o) :
    broadcastTo S2048x128 (extractStridedSlice S1x128 ![o, 0] x hs) hb (ix2 r l) = x (ix2 c l) :=
  (broadcastTo_1b_ab_apply _ hb r l).trans
    (slice2_axis0_apply o x hs (0 : Fin 1) l c (by rw [hc]; rfl))

/-- Column `o` of a 2048 × 8 block, repeated across the 128 lanes, reads at `(r, l)` the block's entry `(r, o)`. -/
theorem col_read (o : Nat) (x : S2048x8.Idx → α) (hs : S2048x8.Slices ![0, o] S2048x1)
    (hb : S2048x1.Broadcasts S2048x128) (r : Fin 2048) (l : Fin 128) (c : Fin 8) (hc : c.val = o) :
    broadcastTo S2048x128 (extractStridedSlice S2048x1 ![0, o] x hs) hb (ix2 r l) = x (ix2 r c) :=
  (broadcastTo_a1_ab_apply _ hb r l).trans
    (slice2_axis1_apply o x hs r (0 : Fin 1) c (by rw [hc]; rfl))

end Layout

/-! ## One affine factor, and the bits of a case number -/

/-- The affine factor of corner `o` read at `(r, l)`: `c0[o, l] + p · c1[o, l]` with `p` the occupancy of cell `r`
    at corner `o`. -/
theorem factor_read (o : Nat) (c : Fin 8) (hc : c.val = o) (x0 : FVec Ideal S2048x8 .f32)
    (x1 x2 : FVec Ideal S8x128 .f32) (hs0 : S2048x8.Slices ![0, o] S2048x1)
    (hs1 hs2 : S8x128.Slices ![o, 0] S1x128) (hbc : S2048x1.Broadcasts S2048x128)
    (hb1 hb2 : S1x128.Broadcasts S2048x128) (r : Fin 2048) (l : Fin 128) :
    addf (broadcastTo S2048x128 (extractStridedSlice S1x128 ![o, 0] x1 hs1) hb1)
        (mulf (broadcastTo S2048x128 (extractStridedSlice S2048x1 ![0, o] x0 hs0) hbc)
          (broadcastTo S2048x128 (extractStridedSlice S1x128 ![o, 0] x2 hs2) hb2)) (ix2 r l)
      = (x1 (ix2 c l) + x0 (ix2 r c) * x2 (ix2 c l) : EReal) := by
  rw [addf_apply, mulf_apply, row_read o x1 hs1 hb1 r l c hc, row_read o x2 hs2 hb2 r l c hc,
    col_read o x0 hs0 hbc r l c hc]

/-- With the tables holding (0, 1) on a set bit and (1, −1) on a clear one, the affine factor of corner `c` at lane
    `l` is the corner's factor in the weight of case `l`. -/
theorem affine_factor (x1 x2 : S8x128.Idx → EReal)
    (h1 : ∀ (c : Fin 8) (l : Fin 128), c.val < 7 → x1 (ix2 c l) = if l.val.testBit c.val then (0 : EReal) else 1)
    (h2 : ∀ (c : Fin 8) (l : Fin 128), c.val < 7 → x2 (ix2 c l) = if l.val.testBit c.val then (1 : EReal) else -1)
    (c : Fin 8) (l : Fin 128) (hc : c.val < 7) (p : EReal) :
    x1 (ix2 c l) + p * x2 (ix2 c l) = Cert.Topo.factor (l.val.testBit c.val) p := by
  rw [h1 c l hc, h2 c l hc]
  cases l.val.testBit c.val
  · exact Cert.Topo.affine_clear p
  · exact Cert.Topo.affine_set p

/-- The same with the corner named by its number `o`, the form the entries below use. -/
theorem affine_factor_at (x1 x2 : S8x128.Idx → EReal)
    (h1 : ∀ (c : Fin 8) (l : Fin 128), c.val < 7 → x1 (ix2 c l) = if l.val.testBit c.val then (0 : EReal) else 1)
    (h2 : ∀ (c : Fin 8) (l : Fin 128), c.val < 7 → x2 (ix2 c l) = if l.val.testBit c.val then (1 : EReal) else -1)
    (o : Nat) (c : Fin 8) (hc : c.val = o) (ho : o < 7) (l : Fin 128) (p : EReal) :
    x1 (ix2 c l) + p * x2 (ix2 c l) = Cert.Topo.factor (l.val.testBit o) p := by
  subst hc
  exact affine_factor x1 x2 h1 h2 c l ho p

/-- Adding 128 to a case number below 128 leaves its bits 0 … 6 as they were … -/
theorem testBit_add_128 (l : Fin 128) (o : Nat) (ho : o < 7) :
    (l.val + 128).testBit o = l.val.testBit o := by
  have h : (2 ^ 7 + l.val).testBit o = l.val.testBit o := Nat.testBit_two_pow_add_gt ho l.val
  rw [Nat.add_comm]
  exact h

/-- … and sets bit 7, which is clear below 128. -/
theorem testBit_seven_low (l : Fin 128) : l.val.testBit 7 = false :=
  Nat.testBit_lt_two_pow l.isLt

theorem testBit_seven_high (l : Fin 128) : (l.val + 128).testBit 7 = true := by
  have h : (2 ^ 7 + l.val).testBit 7 = !(l.val.testBit 7) := Nat.testBit_two_pow_add_eq l.val 7
  rw [testBit_seven_low] at h
  rw [Nat.add_comm]
  exact h

/-! ## The body's values at an entry -/

/-- The block cast to its own shape is the block. -/
theorem pay5_eq (x0 : Vec Ideal S2048x8 .f32) : k0_pay5 (F := Ideal) x0 = x0 := shapeCast_self _ _

/-- The product of the first five affine factors, starting from one. -/
theorem pay6_entry (x0 : Vec Ideal S2048x8 .f32) (x1 x2 : Vec Ideal S8x128 .f32) (r : Fin 2048) (l : Fin 128) :
    k0_pay6 (F := Ideal) x0 x1 x2 (ix2 r l)
      = ((((((1 : EReal) * (x1 (ix2 0 l) + x0 (ix2 r 0) * x2 (ix2 0 l)))
          * (x1 (ix2 1 l) + x0 (ix2 r 1) * x2 (ix2 1 l)))
          * (x1 (ix2 2 l) + x0 (ix2 r 2) * x2 (ix2 2 l)))
          * (x1 (ix2 3 l) + x0 (ix2 r 3) * x2 (ix2 3 l)))
          * (x1 (ix2 4 l) + x0 (ix2 r 4) * x2 (ix2 4 l))) := by
  unfold k0_pay6
  rw [pay5_eq]
  simp only [mulf_apply]
  rw [factor_read 0 (0 : Fin 8) rfl x0 x1 x2, factor_read 1 (1 : Fin 8) rfl x0 x1 x2,
    factor_read 2 (2 : Fin 8) rfl x0 x1 x2, factor_read 3 (3 : Fin 8) rfl x0 x1 x2,
    factor_read 4 (4 : Fin 8) rfl x0 x1 x2, broadcast_apply]
  rw [show Scalar.ofBits (F := Ideal) .f32 0x3F800000#32 = (1 : EReal) from Cert.Topo.word_one]

/-- The product of all seven affine factors, starting from one. -/
theorem pay1_entry (x0 : Vec Ideal S2048x8 .f32) (x1 x2 : Vec Ideal S8x128 .f32) (r : Fin 2048) (l : Fin 128) :
    k0_pay1 (F := Ideal) (k0_pay5 x0) x1 x2 (k0_pay6 x0 x1 x2) (k0_pay7 x0) (k0_pay8 x1) (ix2 r l)
      = ((((((((1 : EReal) * (x1 (ix2 0 l) + x0 (ix2 r 0) * x2 (ix2 0 l)))
          * (x1 (ix2 1 l) + x0 (ix2 r 1) * x2 (ix2 1 l)))
          * (x1 (ix2 2 l) + x0 (ix2 r 2) * x2 (ix2 2 l)))
          * (x1 (ix2 3 l) + x0 (ix2 r 3) * x2 (ix2 3 l)))
          * (x1 (ix2 4 l) + x0 (ix2 r 4) * x2 (ix2 4 l)))
          * (x1 (ix2 5 l) + x0 (ix2 r 5) * x2 (ix2 5 l)))
          * (x1 (ix2 6 l) + x0 (ix2 r 6) * x2 (ix2 6 l))) := by
  unfold k0_pay1 k0_pay7 k0_pay8
  rw [pay5_eq]
  simp only [mulf_apply]
  rw [pay6_entry, factor_read 5 (5 : Fin 8) rfl x0 x1 x2, factor_read 6 (6 : Fin 8) rfl x0 x1 x2]

/-- Column 7 of the block, repeated across the lanes, reads the cell's occupancy at corner 7. -/
theorem pay2_read (x0 : Vec Ideal S2048x8 .f32) (hb : S2048x1.Broadcasts S2048x128) (r : Fin 2048) (l : Fin 128) :
    broadcastTo S2048x128 (k0_pay2 (F := Ideal) (k0_pay5 x0)) hb (ix2 r l) = x0 (ix2 r 7) := by
  unfold k0_pay2
  rw [pay5_eq]
  exact col_read 7 x0 _ hb r l (7 : Fin 8) rfl

/-- Column 7 of the block reads, at row `r`, the cell's occupancy at corner 7. -/
theorem pay2_entry (x0 : Vec Ideal S2048x8 .f32) (r : Fin 2048) :
    k0_pay2 (F := Ideal) (k0_pay5 x0) (ix2 r (0 : Fin 1)) = x0 (ix2 r 7) := by
  unfold k0_pay2
  rw [pay5_eq]
  exact slice2_axis1_apply 7 x0 _ r (0 : Fin 1) (7 : Fin 8) rfl

/-- The product of the seven affine factors is the weight's first seven factors. -/
theorem seven_factors (x0 : Vec Ideal S2048x8 .f32) (x1 x2 : Vec Ideal S8x128 .f32)
    (h1 : ∀ (c : Fin 8) (l : Fin 128), c.val < 7 → x1 (ix2 c l) = if l.val.testBit c.val then (0 : EReal) else 1)
    (h2 : ∀ (c : Fin 8) (l : Fin 128), c.val < 7 → x2 (ix2 c l) = if l.val.testBit c.val then (1 : EReal) else -1)
    (r : Fin 2048) (l : Fin 128) :
    k0_pay1 (F := Ideal) (k0_pay5 x0) x1 x2 (k0_pay6 x0 x1 x2) (k0_pay7 x0) (k0_pay8 x1) (ix2 r l)
      = ((((((((1 : EReal) * Cert.Topo.factor (l.val.testBit 0) (x0 (ix2 r 0)))
          * Cert.Topo.factor (l.val.testBit 1) (x0 (ix2 r 1)))
          * Cert.Topo.factor (l.val.testBit 2) (x0 (ix2 r 2)))
          * Cert.Topo.factor (l.val.testBit 3) (x0 (ix2 r 3)))
          * Cert.Topo.factor (l.val.testBit 4) (x0 (ix2 r 4)))
          * Cert.Topo.factor (l.val.testBit 5) (x0 (ix2 r 5)))
          * Cert.Topo.factor (l.val.testBit 6) (x0 (ix2 r 6))) := by
  rw [pay1_entry,
    affine_factor_at x1 x2 h1 h2 0 (0 : Fin 8) rfl (by decide) l, affine_factor_at x1 x2 h1 h2 1 (1 : Fin 8) rfl (by decide) l,
    affine_factor_at x1 x2 h1 h2 2 (2 : Fin 8) rfl (by decide) l, affine_factor_at x1 x2 h1 h2 3 (3 : Fin 8) rfl (by decide) l,
    affine_factor_at x1 x2 h1 h2 4 (4 : Fin 8) rfl (by decide) l, affine_factor_at x1 x2 h1 h2 5 (5 : Fin 8) rfl (by decide) l,
    affine_factor_at x1 x2 h1 h2 6 (6 : Fin 8) rfl (by decide) l]

/-- THE LOWER 128 LANES: entry `(r, l)` is the weight of case `l` for cell `r`. -/
theorem low_entry (x0 : Vec Ideal S2048x8 .f32) (x1 x2 : Vec Ideal S8x128 .f32)
    (h1 : ∀ (c : Fin 8) (l : Fin 128), c.val < 7 → x1 (ix2 c l) = if l.val.testBit c.val then (0 : EReal) else 1)
    (h2 : ∀ (c : Fin 8) (l : Fin 128), c.val < 7 → x2 (ix2 c l) = if l.val.testBit c.val then (1 : EReal) else -1)
    (r : Fin 2048) (l : Fin 128) :
    k0_pay3 (F := Ideal) (k0_pay5 x0) x1 x2 (k0_pay6 x0 x1 x2) (k0_pay7 x0) (k0_pay8 x1) (ix2 r l)
      = Cert.Topo.weight (fun c => x0 (ix2 r c)) l.val := by
  unfold k0_pay3
  simp only [mulf_apply]
  rw [seven_factors x0 x1 x2 h1 h2 r l, broadcastTo_a1_ab_apply, subf_apply, broadcast_apply, pay2_entry,
    show Scalar.ofBits (F := Ideal) .f32 0x3F800000#32 = (1 : EReal) from Cert.Topo.word_one]
  unfold Cert.Topo.weight
  rw [testBit_seven_low l]
  rfl

/-- THE UPPER 128 LANES: entry `(r, l)` is the weight of case `l + 128` for cell `r`. -/
theorem high_entry (x0 : Vec Ideal S2048x8 .f32) (x1 x2 : Vec Ideal S8x128 .f32)
    (h1 : ∀ (c : Fin 8) (l : Fin 128), c.val < 7 → x1 (ix2 c l) = if l.val.testBit c.val then (0 : EReal) else 1)
    (h2 : ∀ (c : Fin 8) (l : Fin 128), c.val < 7 → x2 (ix2 c l) = if l.val.testBit c.val then (1 : EReal) else -1)
    (r : Fin 2048) (l : Fin 128) :
    k0_pay4 (F := Ideal) (k0_pay5 x0) x1 x2 (k0_pay6 x0 x1 x2) (k0_pay7 x0) (k0_pay8 x1) (ix2 r l)
      = Cert.Topo.weight (fun c => x0 (ix2 r c)) (l.val + 128) := by
  unfold k0_pay4
  simp only [mulf_apply]
  rw [seven_factors x0 x1 x2 h1 h2 r l, pay2_read]
  unfold Cert.Topo.weight
  rw [testBit_seven_high l, testBit_add_128 l 0 (by decide), testBit_add_128 l 1 (by decide),
    testBit_add_128 l 2 (by decide), testBit_add_128 l 3 (by decide), testBit_add_128 l 4 (by decide),
    testBit_add_128 l 5 (by decide), testBit_add_128 l 6 (by decide)]
  rfl

end Cert.KernelIdeal.HandValue

end
-- ==== Proof.KTables.lean ====
/-
  The two affine tables' entries.

  The program's two 8 × 128 constants are printed as 1024 words each, in row-major order: entry (c, l) is word
  c · 128 + l. For the seven corner rows c < 7 the first table holds the word of 1.0 where bit c of l is clear and the
  word of 0.0 where it is set; the second holds the word of −1.0 where the bit is clear and of 1.0 where it is set.
  Both facts are finite checks on words, one per row and lane (896 of each); read as extended reals the words are
  1, 0 and −1.
-/
import proofs.«179041_j44753559224581_2_alg».proof.Proof.KerTermIdeal
import proofs.«179041_j44753559224581_2_alg».proof.Proof.TopoSpec
import Idealize.ShloMosaic.Lib.ValueIdx

noncomputable section

namespace Cert.KernelIdeal.HandValue

open Idealize.ShloMosaic Idealize.ShloMosaic.ValueIdx Cert.KernelIdeal

/-- Entry `(c, l)` of an 8 × 128 array sits at row-major position `c · 128 + l`. -/
theorem rowMajor_ix2 (c : Fin 8) (l : Fin 128) : (S8x128.rowMajor (ix2 c l)).val = c.val * 128 + l.val := by
  rw [Shape.rowMajor_val_two]
  rfl

/-- The first table's words in the seven corner rows. -/
theorem lit0t_word : ∀ (c : Fin 7) (l : Fin 128),
    lit0t (c.val * 128 + l.val) = if l.val.testBit c.val then 0x00000000#32 else 0x3F800000#32 := by
  decide +kernel

/-- The second table's words in the seven corner rows. -/
theorem lit1t_word : ∀ (c : Fin 7) (l : Fin 128),
    lit1t (c.val * 128 + l.val) = if l.val.testBit c.val then 0x3F800000#32 else 0xBF800000#32 := by
  decide +kernel

/-- Row `c < 7`, lane `l` of the constant terms' table: 0 on a set bit, 1 on a clear one. -/
theorem c0tab_entry (c : Fin 8) (l : Fin 128) (hc : c.val < 7) :
    Cert.KernelIdeal.Hand.c0tab (F := Ideal) (ix2 c l) = if l.val.testBit c.val then (0 : EReal) else 1 := by
  have hpos : S8x128.rowMajor (ix2 c l) = ⟨c.val * 128 + l.val, (rowMajor_ix2 c l) ▸ (S8x128.rowMajor (ix2 c l)).isLt⟩ :=
    Fin.ext (rowMajor_ix2 c l)
  show Ideal.ofBits .f32 (lit0 (S8x128.rowMajor (ix2 c l))) = _
  rw [hpos]
  show Ideal.ofBits .f32 (lit0t (c.val * 128 + l.val)) = _
  rw [lit0t_word ⟨c.val, hc⟩ l]
  show Ideal.ofBits .f32 (if l.val.testBit c.val then 0x00000000#32 else 0x3F800000#32) = _
  cases l.val.testBit c.val
  · exact Cert.Topo.word_one
  · exact Cert.Topo.word_zero

/-- Row `c < 7`, lane `l` of the slopes' table: 1 on a set bit, −1 on a clear one. -/
theorem c1tab_entry (c : Fin 8) (l : Fin 128) (hc : c.val < 7) :
    Cert.KernelIdeal.Hand.c1tab (F := Ideal) (ix2 c l) = if l.val.testBit c.val then (1 : EReal) else -1 := by
  have hpos : S8x128.rowMajor (ix2 c l) = ⟨c.val * 128 + l.val, (rowMajor_ix2 c l) ▸ (S8x128.rowMajor (ix2 c l)).isLt⟩ :=
    Fin.ext (rowMajor_ix2 c l)
  show Ideal.ofBits .f32 (lit1 (S8x128.rowMajor (ix2 c l))) = _
  rw [hpos]
  show Ideal.ofBits .f32 (lit1t (c.val * 128 + l.val)) = _
  rw [lit1t_word ⟨c.val, hc⟩ l]
  show Ideal.ofBits .f32 (if l.val.testBit c.val then 0x3F800000#32 else 0xBF800000#32) = _
  cases l.val.testBit c.val
  · exact Cert.Topo.word_neg_one
  · exact Cert.Topo.word_one

end Cert.KernelIdeal.HandValue

end
-- ==== Proof.KValueIdeal.lean ====
/-
  The value of the kernel program at the exact instance. The launch finds the corner array and the two tables as the
  host operations left them (`V_corners`, `V_c0`, `V_c1`). Block t of the corner array is its rows 2048·t … 2048·t + 2047,
  and each table's block is the whole table. The two halves the body stores are, entry by entry, the case's weight of the
  block's row: lanes 0 … 127 the cases t < 128 (corner 7 outside), lanes 128 … 255 the cases t ≥ 128 (corner 7 inside); so
  the output block is one function of the input block (`blockTopo`), and point t writes back rows 2048·t … of the topology
  array of the corners. The 128 blocks tile the result array, which therefore ends at the topology array.
-/
import proofs.«179041_j44753559224581_2_alg».proof.Proof.KFrameBIdeal
import proofs.«179041_j44753559224581_2_alg».proof.Proof.KerTermIdeal
import proofs.«179041_j44753559224581_2_alg».proof.Proof.KValueBody
import proofs.«179041_j44753559224581_2_alg».proof.Proof.KTables
import proofs.«179041_j44753559224581_2_alg».proof.Proof.TopoSpec
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.SL.Sem Idealize.ShloMosaic.ValueIdx
open Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-! ## What the host operations leave for the launch -/

theorem V_c0 (c : Dev nD) : (V m c main_cst : S8x128.Idx → EReal) = c0tab (F := Ideal) := by
  dsimp only [V, hostOps0]; after_results; rfl

theorem V_c1 (c : Dev nD) : (V m c main_cst_0 : S8x128.Idx → EReal) = c1tab (F := Ideal) := by
  dsimp only [V, hostOps0]; after_results; rfl

theorem V_corners (c : Dev nD) :
    (V m c main_v24 : S262144x8.Idx → EReal) = corners (F := Ideal) (m ((c : Thread nD τ).loc main_arg0)) := by
  dsimp only [V, hostOps0]; after_results; rfl

/-! ## The windows' blocks, read at an index -/

theorem hz : (![0, 0] : Fin 2 → Nat) = fun _ => 0 := funext fun a => by fin_cases a <;> rfl

/-- The printed index maps over the grid: the corner array's and the result's blocks move down the rows with the
    point; each table's block stays at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Block t of the corner array is its rows 2048·t … 2048·t + 2047. -/
theorem iblk0_apply (c : Dev nD) (t : Fin cfg0.N) (y : S2048x8.Idx) (i : S262144x8.Idx)
    (h0 : (i 0).val = 2048 * t.val + (y 0).val) (h1 : (i 1).val = (y 1).val) :
    (iblk m c 0 t : Vec Ideal S2048x8 .f32) y = (V m c main_v24 : S262144x8.Idx → EReal) i := by
  obtain ⟨e0, e1, -⟩ := idx_facts t
  unfold iblk
  rw [View.read_apply]
  show V m c main_v24 _ = V m c main_v24 _
  refine congrArg _ ?_
  funext a
  apply Fin.ext
  match a with
  | ⟨0, _⟩ => show win0_0.index t (0 : Fin 2) * 2048 + 1 * (y 0).val = (i 0).val; rw [e0, h0]; omega
  | ⟨1, _⟩ => show win0_0.index t (1 : Fin 2) * 8 + 1 * (y 1).val = (i 1).val; rw [e1, h1]; omega

/-- The first table's block at any point is the whole table. -/
theorem iblk1_eq (c : Dev nD) (t : Fin cfg0.N) : (iblk m c 1 t : Vec Ideal S8x128 .f32) = (V m c main_cst : S8x128.Idx → EReal) := by
  obtain ⟨-, -, e0, e1, -⟩ := idx_facts t
  funext y
  unfold iblk
  rw [View.read_apply]
  show V m c main_cst _ = V m c main_cst _
  refine congrArg _ ?_
  funext a
  apply Fin.ext
  match a with
  | ⟨0, _⟩ => show win0_1.index t (0 : Fin 2) * 8 + 1 * (y 0).val = (y 0).val; rw [e0]; omega
  | ⟨1, _⟩ => show win0_1.index t (1 : Fin 2) * 128 + 1 * (y 1).val = (y 1).val; rw [e1]; omega

/-- The second table's block at any point is the whole table. -/
theorem iblk2_eq (c : Dev nD) (t : Fin cfg0.N) : (iblk m c 2 t : Vec Ideal S8x128 .f32) = (V m c main_cst_0 : S8x128.Idx → EReal) := by
  obtain ⟨-, -, -, -, e0, e1, -⟩ := idx_facts t
  funext y
  unfold iblk
  rw [View.read_apply]
  show V m c main_cst_0 _ = V m c main_cst_0 _
  refine congrArg _ ?_
  funext a
  apply Fin.ext
  match a with
  | ⟨0, _⟩ => show win0_2.index t (0 : Fin 2) * 8 + 1 * (y 0).val = (y 0).val; rw [e0]; omega
  | ⟨1, _⟩ => show win0_2.index t (1 : Fin 2) * 128 + 1 * (y 1).val = (y 1).val; rw [e1]; omega

/-! ## The output block as one function of the corner block -/

/-- Entry (r, l) of an output block: the weight of case l for the cell in row r of the corner block. -/
def blockTopo (x0 : Vec Ideal S2048x8 .f32) : S2048x256.Idx → EReal :=
  fun y => Cert.Topo.weight (fun k => x0 (ix2 (⟨(y 0).val, idx2_lt0 y⟩ : Fin 2048) k)) (y 1).val

/-- With the tables holding (0, 1) on a set bit and (1, −1) on a clear one, the overlay of the two stored halves is
    `blockTopo` of the corner block. -/
theorem out3_eq (x0 : Vec Ideal S2048x8 .f32) (x1 x2 : Vec Ideal S8x128 .f32)
    (h1 : ∀ (k : Fin 8) (l : Fin 128), k.val < 7 → x1 (ix2 k l) = if l.val.testBit k.val then (0 : EReal) else 1)
    (h2 : ∀ (k : Fin 8) (l : Fin 128), k.val < 7 → x2 (ix2 k l) = if l.val.testBit k.val then (1 : EReal) else -1) :
    out3 x0 x1 x2 = blockTopo x0 := by
  funext y
  unfold out3
  refine View.canon_apply_of_pieces (Val := Elt Ideal) (e := EltTy.f32) (blockTopo x0 : S2048x256.Idx → Elt Ideal .f32) _ ?_ y (cover3 _ _ y)
  intro p hp x
  simp only [List.mem_cons, List.mem_singleton, List.not_mem_nil, or_false] at hp
  rcases hp with rfl | rfl
  · obtain ⟨r, l, rfl⟩ : ∃ (r : Fin 2048) (l : Fin 128), x = ix2 r l := ⟨x 0, x 1, eq_ix2 x⟩
    show payHi x0 x1 x2 (ix2 r l) = blockTopo x0 (rHi.emb (ix2 r l))
    unfold payHi
    simp only [View.ld_unit_zero (S := S2048x8) hz, View.ld_unit_zero (S := S8x128) hz]
    rw [Cert.KernelIdeal.HandValue.high_entry x0 x1 x2 h1 h2 r l]
    unfold blockTopo
    have e0 : ((rHi.emb (ix2 r l)) 0).val = r.val := by
      rw [Rect.emb_apply]; simp only [Rect.off_unit, Rect.stride_unit]; show 0 + 1 * r.val = r.val; omega
    have e1 : ((rHi.emb (ix2 r l)) 1).val = l.val + 128 := by
      rw [Rect.emb_apply]; simp only [Rect.off_unit, Rect.stride_unit]; show 128 + 1 * l.val = l.val + 128; omega
    rw [e1]
    refine congrArg (fun P => Cert.Topo.weight P (l.val + 128)) ?_
    funext k
    refine congrArg x0 ?_
    refine congrArg (fun a => ix2 a k) ?_
    exact Fin.ext e0.symm
  · obtain ⟨r, l, rfl⟩ : ∃ (r : Fin 2048) (l : Fin 128), x = ix2 r l := ⟨x 0, x 1, eq_ix2 x⟩
    show payLo x0 x1 x2 (ix2 r l) = blockTopo x0 (rLo.emb (ix2 r l))
    unfold payLo
    simp only [View.ld_unit_zero (S := S2048x8) hz, View.ld_unit_zero (S := S8x128) hz]
    rw [Cert.KernelIdeal.HandValue.low_entry x0 x1 x2 h1 h2 r l]
    unfold blockTopo
    have e0 : ((rLo.emb (ix2 r l)) 0).val = r.val := by
      rw [Rect.emb_apply]; simp only [Rect.off_unit, Rect.stride_unit]; show 0 + 1 * r.val = r.val; omega
    have e1 : ((rLo.emb (ix2 r l)) 1).val = l.val := by
      rw [Rect.emb_apply]; simp only [Rect.off_unit, Rect.stride_unit]; show 0 + 1 * l.val = l.val; omega
    rw [e1]
    refine congrArg (fun P => Cert.Topo.weight P l.val) ?_
    funext k
    refine congrArg x0 ?_
    refine congrArg (fun a => ix2 a k) ?_
    exact Fin.ext e0.symm

/-- `blockTopo` of rows 2048·t … of an array is rows 2048·t … of the array's topology. -/
theorem blockTopo_rows (A : S262144x8.Idx → EReal) (X : S2048x8.Idx → EReal) (t : Nat)
    (hX : ∀ (y : S2048x8.Idx) (i : S262144x8.Idx), (i 0).val = 2048 * t + (y 0).val → (i 1).val = (y 1).val → X y = A i)
    (j : S2048x256.Idx) (i : S262144x256.Idx) (h0 : (i 0).val = 2048 * t + (j 0).val) (h1 : (i 1).val = (j 1).val) :
    blockTopo X j = Cert.Topo.topoArr A i := by
  unfold blockTopo Cert.Topo.topoArr Cert.Topo.topo
  show Cert.Topo.weight _ (j 1).val = Cert.Topo.weight _ (i 1).val
  rw [h1]
  refine congrArg (fun P => Cert.Topo.weight P (j 1).val) ?_
  funext k
  exact hX _ _ h0 rfl

/-! ## From the blocks to the array -/

/-- What point t writes back is block t of the topology array of the corners. -/
theorem flushed_eq (c : Dev nD) (t : Fin cfg0.N) :
    (dats m 0 c).flushed 3 t
      = ((cfg0.win 3).blk t).view.read (Elt Ideal) (Cert.Topo.topoArr (V m c main_v24 : S262144x8.Idx → EReal)) := by
  show (cfg0.win 3).cut (grid0.coords t) ((dats m 0 c).after 3 t) = _
  rw [after3, iblk1_eq, iblk2_eq, V_c0, V_c1,
    out3_eq _ _ _ Cert.KernelIdeal.HandValue.c0tab_entry Cert.KernelIdeal.HandValue.c1tab_entry]
  obtain ⟨-, -, -, -, -, -, e0, e1⟩ := idx_facts t
  funext j
  rw [View.read_apply]
  refine blockTopo_rows (V m c main_v24 : S262144x8.Idx → EReal) (iblk m c 0 t) t.val
    (fun y i h0 h1 => iblk0_apply m c t y i h0 h1) j _ ?_ ?_
  · show win0_3.index t (0 : Fin 2) * 2048 + 1 * (j 0).val = 2048 * t.val + (j 0).val; rw [e0]; omega
  · show win0_3.index t (1 : Fin 2) * 256 + 1 * (j 1).val = (j 1).val; rw [e1]; omega

/-- Every entry of the result array lies in the block of the point its row falls in. -/
theorem cover (i : S262144x256.Idx) :
    ∃ t : Fin cfg0.N, (cfg0.win 3).flush t = true ∧ i ∈ ((cfg0.win 3).blk t).view.set := by
  have hi0 : (i 0).val < 262144 := (i 0).isLt
  have hi1 : (i 1).val < 256 := (i 1).isLt
  have hN : cfg0.N = 128 := N_0
  obtain ⟨t, ht⟩ : ∃ t : Fin cfg0.N, t.val = (i 0).val / 2048 := ⟨⟨(i 0).val / 2048, by rw [hN]; omega⟩, rfl⟩
  refine ⟨t, flush0_3 t, ?_⟩
  obtain ⟨-, -, -, -, -, -, e0, e1⟩ := idx_facts t
  show i ∈ ((View.whole main_v25).slice (win0_3.rect t)).set
  rw [View.set_slice_whole, Rect.mem_set_unit]
  intro a
  match a with
  | ⟨0, _⟩ =>
    show win0_3.index t (0 : Fin 2) * 2048 ≤ (i 0).val ∧ (i 0).val < win0_3.index t (0 : Fin 2) * 2048 + 2048
    rw [e0, ht]; omega
  | ⟨1, _⟩ =>
    show win0_3.index t (1 : Fin 2) * 256 ≤ (i 1).val ∧ (i 1).val < win0_3.index t (1 : Fin 2) * 256 + 256
    rw [e1]; omega

/-- The result array after the run: the topology array of the corners. -/
theorem final (c : Dev nD) :
    (dats m 0 c).arrAt 3 cfg0.N = Cert.Topo.topoArr (V m c main_v24 : S262144x8.Idx → EReal) :=
  (dats m 0 c).arrAt_eq_of_cover 3 _ (fun t _ => flushed_eq m c t) cover

/-! ## The run, read -/

/-- Every weakly fair execution of @main terminates with the result array at the topology array of the argument's
    corners, and the argument unchanged. -/
theorem run : θ_run defs (onTc (τ := τ) (main (F := Ideal))) ⟨m, fun _ => 0, ρ⟩ fun r => ∀ c : Dev nD,
      r.2.mem ((c.tc : Thread nD τ).loc main_v25)
        = Cert.Topo.topoArr (corners (F := Ideal) (m ((c.tc : Thread nD τ).loc main_arg0)))
      ∧ r.2.mem ((c.tc : Thread nD τ).loc main_arg0) = m ((c.tc : Thread nD τ).loc main_arg0) :=
  (θ_run defs _ _).mono (fun r h c =>
      ⟨((h c).1 3).trans ((final m c).trans (congrArg Cert.Topo.topoArr (V_corners m c))),
       ((h c).2 main_arg0 (Pipeline.mem_restRefs_of main_arg0 (by decide) (by decide))).trans (V_main_arg0 m c)⟩)
    (run_main m ρ)

end Cert.KernelIdeal.Hand

end
-- ==== Proof.RefTerm.lean ====
/-
  The reference program's result as pure terms of its argument: the corner array, the table of the cases' bits, one
  corner's selected factor over the whole array, and the eight factors multiplied in order onto the array of ones.
-/
import proofs.«179041_j44753559224581_2_alg».proof.Proof.Gen.ReferenceIdeal

noncomputable section

namespace Cert.ReferenceIdeal.Hand

open Idealize.ShloMosaic Cert.ReferenceIdeal
open Cert.ReferenceIdeal.Facts₀

variable {F : FTy → Type} [FloatOps F]

/-- Corner `off` of every cell as a column: the occupancy grid shifted by `off` and cut to 64×64×64, flattened cell by
    cell in row-major order, then stood up as a one-column array. -/
def cornerCol (x : FVec F S65x65x65 .f32) (off : Fin 3 → Nat) (h : S65x65x65.Slices off S64x64x64) : FVec F S262144x1 .f32 :=
  broadcastInDim S262144x1 ![0] bcast_S262144_S262144x1_0
    (shapeCast S262144 (extractStridedSlice S64x64x64 off x h) shapeCasts_S64x64x64_S262144)

/-- The corner array (cells × 8) of an occupancy grid: the eight corner columns side by side, in the corners' order
    (0,0,0), (1,0,0), (1,1,0), (0,1,0), (0,0,1), (1,0,1), (1,1,1), (0,1,1). -/
def corners (x : FVec F S65x65x65 .f32) : FVec F S262144x8 .f32 :=
  concatenate S262144x8 1
    [⟨S262144x1, cornerCol x ![0, 0, 0] slices_S65x65x65_S64x64x64_0_0_0⟩,
     ⟨S262144x1, cornerCol x ![1, 0, 0] slices_S65x65x65_S64x64x64_1_0_0⟩,
     ⟨S262144x1, cornerCol x ![1, 1, 0] slices_S65x65x65_S64x64x64_1_1_0⟩,
     ⟨S262144x1, cornerCol x ![0, 1, 0] slices_S65x65x65_S64x64x64_0_1_0⟩,
     ⟨S262144x1, cornerCol x ![0, 0, 1] slices_S65x65x65_S64x64x64_0_0_1⟩,
     ⟨S262144x1, cornerCol x ![1, 0, 1] slices_S65x65x65_S64x64x64_1_0_1⟩,
     ⟨S262144x1, cornerCol x ![1, 1, 1] slices_S65x65x65_S64x64x64_1_1_1⟩,
     ⟨S262144x1, cornerCol x ![0, 1, 1] slices_S65x65x65_S64x64x64_0_1_1⟩]
    concatenates_S262144x1_S262144x1_S262144x1_S262144x1_S262144x1_S262144x1_S262144x1_S262144x1_S262144x8_d1

/-- The table of the cases' bits (256 × 8, one bit each): entry (t, c) is bit c of t. -/
def bitsTable : IVec S256x8 1 := fun i => lit0 (S256x8.rowMajor i)

/-- Corner `c`'s factor over the whole array: where the case's bit (column `c` of the table `B`, laid along the
    cases' axis) is set, the corner's occupancy (column `c` of `C`, laid along the cells' axis); elsewhere one minus it. -/
def factor0 (C : FVec F S262144x8 .f32) (B : IVec S256x8 1) : FVec F S262144x256 .f32 :=
  (select
        (broadcastInDim S262144x256 ![0, 1] bcast_S1x256_S262144x256_0_1
          (broadcastInDim S1x256 ![1] bcast_S256_S1x256_1
            (shapeCast S256 (extractStridedSlice S256x1 ![0, 0] B slices_S256x8_S256x1_0_0) shapeCasts_S256x1_S256)))
        (broadcastInDim S262144x256 ![0, 1] bcast_S262144x1_S262144x256_0_1
          (extractStridedSlice S262144x1 ![0, 0] C slices_S262144x8_S262144x1_0_0))
        (broadcastInDim S262144x256 ![0, 1] bcast_S262144x1_S262144x256_0_1
          (subf (broadcastInDim S262144x1 ![] bcast_S_S262144x1 (constant S_ .f32 0x3F800000#32))
            (extractStridedSlice S262144x1 ![0, 0] C slices_S262144x8_S262144x1_0_0))))
def factor1 (C : FVec F S262144x8 .f32) (B : IVec S256x8 1) : FVec F S262144x256 .f32 :=
  (select
        (broadcastInDim S262144x256 ![0, 1] bcast_S1x256_S262144x256_0_1
          (broadcastInDim S1x256 ![1] bcast_S256_S1x256_1
            (shapeCast S256 (extractStridedSlice S256x1 ![0, 1] B slices_S256x8_S256x1_0_1) shapeCasts_S256x1_S256)))
        (broadcastInDim S262144x256 ![0, 1] bcast_S262144x1_S262144x256_0_1
          (extractStridedSlice S262144x1 ![0, 1] C slices_S262144x8_S262144x1_0_1))
        (broadcastInDim S262144x256 ![0, 1] bcast_S262144x1_S262144x256_0_1
          (subf (broadcastInDim S262144x1 ![] bcast_S_S262144x1 (constant S_ .f32 0x3F800000#32))
            (extractStridedSlice S262144x1 ![0, 1] C slices_S262144x8_S262144x1_0_1))))
def factor2 (C : FVec F S262144x8 .f32) (B : IVec S256x8 1) : FVec F S262144x256 .f32 :=
  (select
        (broadcastInDim S262144x256 ![0, 1] bcast_S1x256_S262144x256_0_1
          (broadcastInDim S1x256 ![1] bcast_S256_S1x256_1
            (shapeCast S256 (extractStridedSlice S256x1 ![0, 2] B slices_S256x8_S256x1_0_2) shapeCasts_S256x1_S256)))
        (broadcastInDim S262144x256 ![0, 1] bcast_S262144x1_S262144x256_0_1
          (extractStridedSlice S262144x1 ![0, 2] C slices_S262144x8_S262144x1_0_2))
        (broadcastInDim S262144x256 ![0, 1] bcast_S262144x1_S262144x256_0_1
          (subf (broadcastInDim S262144x1 ![] bcast_S_S262144x1 (constant S_ .f32 0x3F800000#32))
            (extractStridedSlice S262144x1 ![0, 2] C slices_S262144x8_S262144x1_0_2))))
def factor3 (C : FVec F S262144x8 .f32) (B : IVec S256x8 1) : FVec F S262144x256 .f32 :=
  (select
        (broadcastInDim S262144x256 ![0, 1] bcast_S1x256_S262144x256_0_1
          (broadcastInDim S1x256 ![1] bcast_S256_S1x256_1
            (shapeCast S256 (extractStridedSlice S256x1 ![0, 3] B slices_S256x8_S256x1_0_3) shapeCasts_S256x1_S256)))
        (broadcastInDim S262144x256 ![0, 1] bcast_S262144x1_S262144x256_0_1
          (extractStridedSlice S262144x1 ![0, 3] C slices_S262144x8_S262144x1_0_3))
        (broadcastInDim S262144x256 ![0, 1] bcast_S262144x1_S262144x256_0_1
          (subf (broadcastInDim S262144x1 ![] bcast_S_S262144x1 (constant S_ .f32 0x3F800000#32))
            (extractStridedSlice S262144x1 ![0, 3] C slices_S262144x8_S262144x1_0_3))))
def factor4 (C : FVec F S262144x8 .f32) (B : IVec S256x8 1) : FVec F S262144x256 .f32 :=
  (select
        (broadcastInDim S262144x256 ![0, 1] bcast_S1x256_S262144x256_0_1
          (broadcastInDim S1x256 ![1] bcast_S256_S1x256_1
            (shapeCast S256 (extractStridedSlice S256x1 ![0, 4] B slices_S256x8_S256x1_0_4) shapeCasts_S256x1_S256)))
        (broadcastInDim S262144x256 ![0, 1] bcast_S262144x1_S262144x256_0_1
          (extractStridedSlice S262144x1 ![0, 4] C slices_S262144x8_S262144x1_0_4))
        (broadcastInDim S262144x256 ![0, 1] bcast_S262144x1_S262144x256_0_1
          (subf (broadcastInDim S262144x1 ![] bcast_S_S262144x1 (constant S_ .f32 0x3F800000#32))
            (extractStridedSlice S262144x1 ![0, 4] C slices_S262144x8_S262144x1_0_4))))
def factor5 (C : FVec F S262144x8 .f32) (B : IVec S256x8 1) : FVec F S262144x256 .f32 :=
  (select
        (broadcastInDim S262144x256 ![0, 1] bcast_S1x256_S262144x256_0_1
          (broadcastInDim S1x256 ![1] bcast_S256_S1x256_1
            (shapeCast S256 (extractStridedSlice S256x1 ![0, 5] B slices_S256x8_S256x1_0_5) shapeCasts_S256x1_S256)))
        (broadcastInDim S262144x256 ![0, 1] bcast_S262144x1_S262144x256_0_1
          (extractStridedSlice S262144x1 ![0, 5] C slices_S262144x8_S262144x1_0_5))
        (broadcastInDim S262144x256 ![0, 1] bcast_S262144x1_S262144x256_0_1
          (subf (broadcastInDim S262144x1 ![] bcast_S_S262144x1 (constant S_ .f32 0x3F800000#32))
            (extractStridedSlice S262144x1 ![0, 5] C slices_S262144x8_S262144x1_0_5))))
def factor6 (C : FVec F S262144x8 .f32) (B : IVec S256x8 1) : FVec F S262144x256 .f32 :=
  (select
        (broadcastInDim S262144x256 ![0, 1] bcast_S1x256_S262144x256_0_1
          (broadcastInDim S1x256 ![1] bcast_S256_S1x256_1
            (shapeCast S256 (extractStridedSlice S256x1 ![0, 6] B slices_S256x8_S256x1_0_6) shapeCasts_S256x1_S256)))
        (broadcastInDim S262144x256 ![0, 1] bcast_S262144x1_S262144x256_0_1
          (extractStridedSlice S262144x1 ![0, 6] C slices_S262144x8_S262144x1_0_6))
        (broadcastInDim S262144x256 ![0, 1] bcast_S262144x1_S262144x256_0_1
          (subf (broadcastInDim S262144x1 ![] bcast_S_S262144x1 (constant S_ .f32 0x3F800000#32))
            (extractStridedSlice S262144x1 ![0, 6] C slices_S262144x8_S262144x1_0_6))))
def factor7 (C : FVec F S262144x8 .f32) (B : IVec S256x8 1) : FVec F S262144x256 .f32 :=
  (select
        (broadcastInDim S262144x256 ![0, 1] bcast_S1x256_S262144x256_0_1
          (broadcastInDim S1x256 ![1] bcast_S256_S1x256_1
            (shapeCast S256 (extractStridedSlice S256x1 ![0, 7] B slices_S256x8_S256x1_0_7) shapeCasts_S256x1_S256)))
        (broadcastInDim S262144x256 ![0, 1] bcast_S262144x1_S262144x256_0_1
          (extractStridedSlice S262144x1 ![0, 7] C slices_S262144x8_S262144x1_0_7))
        (broadcastInDim S262144x256 ![0, 1] bcast_S262144x1_S262144x256_0_1
          (subf (broadcastInDim S262144x1 ![] bcast_S_S262144x1 (constant S_ .f32 0x3F800000#32))
            (extractStridedSlice S262144x1 ![0, 7] C slices_S262144x8_S262144x1_0_7))))

/-- The array of ones multiplied by the eight corners' factors, in order. -/
def tail (C : FVec F S262144x8 .f32) (B : IVec S256x8 1) : FVec F S262144x256 .f32 :=
  mulf (mulf (mulf (mulf (mulf (mulf (mulf (mulf
    (broadcastInDim S262144x256 ![] bcast_S_S262144x256 (constant S_ .f32 0x3F800000#32))
    (factor0 C B)) (factor1 C B)) (factor2 C B)) (factor3 C B)) (factor4 C B)) (factor5 C B)) (factor6 C B)) (factor7 C B)

/-- The reference's result from its argument. -/
def result (x : FVec F S65x65x65 .f32) : FVec F S262144x256 .f32 := tail (corners x) bitsTable

end Cert.ReferenceIdeal.Hand

end
-- ==== Proof.RefRun1.lean ====
/-
  The reference program's @main as a list of its host operations: the table of bits, the eight corner columns cut from
  the occupancy grid and set side by side, the array of ones, and then, for each corner in order, the corner's column,
  its complement, the bit's row, the select of one of the two by the bit (the outlined function's four operations at
  its call's own buffers) and the product onto the running array.
-/
import proofs.«179041_j44753559224581_2_alg».proof.Proof.RefTerm
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-- @main's operations, in order, the eight calls of the outlined select unfolded at their call sites. -/
abbrev ops : List (HloOp τ sig (Elt F)) :=
  [ nullary main_c (fun i => lit0 (S256x8.rowMajor i)),
    unary main_arg0 main_v0 ((extractStridedSlice S64x64x64 ![0, 0, 0] · slices_S65x65x65_S64x64x64_0_0_0) : (⟨S65x65x65, .f32⟩ : BufTy).Contents (Elt F) → (⟨S64x64x64, .f32⟩ : BufTy).Contents (Elt F)),
    reshape main_v0 main_v1 rfl shapeCasts_S64x64x64_S262144,
    unary main_arg0 main_v2 ((extractStridedSlice S64x64x64 ![1, 0, 0] · slices_S65x65x65_S64x64x64_1_0_0) : (⟨S65x65x65, .f32⟩ : BufTy).Contents (Elt F) → (⟨S64x64x64, .f32⟩ : BufTy).Contents (Elt F)),
    reshape main_v2 main_v3 rfl shapeCasts_S64x64x64_S262144,
    unary main_arg0 main_v4 ((extractStridedSlice S64x64x64 ![1, 1, 0] · slices_S65x65x65_S64x64x64_1_1_0) : (⟨S65x65x65, .f32⟩ : BufTy).Contents (Elt F) → (⟨S64x64x64, .f32⟩ : BufTy).Contents (Elt F)),
    reshape main_v4 main_v5 rfl shapeCasts_S64x64x64_S262144,
    unary main_arg0 main_v6 ((extractStridedSlice S64x64x64 ![0, 1, 0] · slices_S65x65x65_S64x64x64_0_1_0) : (⟨S65x65x65, .f32⟩ : BufTy).Contents (Elt F) → (⟨S64x64x64, .f32⟩ : BufTy).Contents (Elt F)),
    reshape main_v6 main_v7 rfl shapeCasts_S64x64x64_S262144,
    unary main_arg0 main_v8 ((extractStridedSlice S64x64x64 ![0, 0, 1] · slices_S65x65x65_S64x64x64_0_0_1) : (⟨S65x65x65, .f32⟩ : BufTy).Contents (Elt F) → (⟨S64x64x64, .f32⟩ : BufTy).Contents (Elt F)),
    reshape main_v8 main_v9 rfl shapeCasts_S64x64x64_S262144,
    unary main_arg0 main_v10 ((extractStridedSlice S64x64x64 ![1, 0, 1] · slices_S65x65x65_S64x64x64_1_0_1) : (⟨S65x65x65, .f32⟩ : BufTy).Contents (Elt F) → (⟨S64x64x64, .f32⟩ : BufTy).Contents (Elt F)),
    reshape main_v10 main_v11 rfl shapeCasts_S64x64x64_S262144,
    unary main_arg0 main_v12 ((extractStridedSlice S64x64x64 ![1, 1, 1] · slices_S65x65x65_S64x64x64_1_1_1) : (⟨S65x65x65, .f32⟩ : BufTy).Contents (Elt F) → (⟨S64x64x64, .f32⟩ : BufTy).Contents (Elt F)),
    reshape main_v12 main_v13 rfl shapeCasts_S64x64x64_S262144,
    unary main_arg0 main_v14 ((extractStridedSlice S64x64x64 ![0, 1, 1] · slices_S65x65x65_S64x64x64_0_1_1) : (⟨S65x65x65, .f32⟩ : BufTy).Contents (Elt F) → (⟨S64x64x64, .f32⟩ : BufTy).Contents (Elt F)),
    reshape main_v14 main_v15 rfl shapeCasts_S64x64x64_S262144,
    unary main_v1 main_v16 (broadcastInDim S262144x1 ![0] bcast_S262144_S262144x1_0 : (⟨S262144, .f32⟩ : BufTy).Contents (Elt F) → (⟨S262144x1, .f32⟩ : BufTy).Contents (Elt F)),
    unary main_v3 main_v17 (broadcastInDim S262144x1 ![0] bcast_S262144_S262144x1_0 : (⟨S262144, .f32⟩ : BufTy).Contents (Elt F) → (⟨S262144x1, .f32⟩ : BufTy).Contents (Elt F)),
    unary main_v5 main_v18 (broadcastInDim S262144x1 ![0] bcast_S262144_S262144x1_0 : (⟨S262144, .f32⟩ : BufTy).Contents (Elt F) → (⟨S262144x1, .f32⟩ : BufTy).Contents (Elt F)),
    unary main_v7 main_v19 (broadcastInDim S262144x1 ![0] bcast_S262144_S262144x1_0 : (⟨S262144, .f32⟩ : BufTy).Contents (Elt F) → (⟨S262144x1, .f32⟩ : BufTy).Contents (Elt F)),
    unary main_v9 main_v20 (broadcastInDim S262144x1 ![0] bcast_S262144_S262144x1_0 : (⟨S262144, .f32⟩ : BufTy).Contents (Elt F) → (⟨S262144x1, .f32⟩ : BufTy).Contents (Elt F)),
    unary main_v11 main_v21 (broadcastInDim S262144x1 ![0] bcast_S262144_S262144x1_0 : (⟨S262144, .f32⟩ : BufTy).Contents (Elt F) → (⟨S262144x1, .f32⟩ : BufTy).Contents (Elt F)),
    unary main_v13 main_v22 (broadcastInDim S262144x1 ![0] bcast_S262144_S262144x1_0 : (⟨S262144, .f32⟩ : BufTy).Contents (Elt F) → (⟨S262144x1, .f32⟩ : BufTy).Contents (Elt F)),
    unary main_v15 main_v23 (broadcastInDim S262144x1 ![0] bcast_S262144_S262144x1_0 : (⟨S262144, .f32⟩ : BufTy).Contents (Elt F) → (⟨S262144x1, .f32⟩ : BufTy).Contents (Elt F)),
    nary ![main_v16, main_v17, main_v18, main_v19, main_v20, main_v21, main_v22, main_v23] main_v24 (fun u => concatenate S262144x8 1 [⟨S262144x1, u 0⟩, ⟨S262144x1, u 1⟩, ⟨S262144x1, u 2⟩, ⟨S262144x1, u 3⟩, ⟨S262144x1, u 4⟩, ⟨S262144x1, u 5⟩, ⟨S262144x1, u 6⟩, ⟨S262144x1, u 7⟩] concatenates_S262144x1_S262144x1_S262144x1_S262144x1_S262144x1_S262144x1_S262144x1_S262144x1_S262144x8_d1),
    nullary main_cst (constant S_ .f32 0x3F800000#32),
    unary main_cst main_v25 (broadcastInDim S262144x256 ![] bcast_S_S262144x256 : (⟨S_, .f32⟩ : BufTy).Contents (Elt F) → (⟨S262144x256, .f32⟩ : BufTy).Contents (Elt F)),
    unary main_v24 main_v26 ((extractStridedSlice S262144x1 ![0, 0] · slices_S262144x8_S262144x1_0_0) : (⟨S262144x8, .f32⟩ : BufTy).Contents (Elt F) → (⟨S262144x1, .f32⟩ : BufTy).Contents (Elt F)),
    unary main_c main_v27 ((extractStridedSlice S256x1 ![0, 0] · slices_S256x8_S256x1_0_0) : (⟨S256x8, .i1⟩ : BufTy).Contents (Elt F) → (⟨S256x1, .i1⟩ : BufTy).Contents (Elt F)),
    reshape main_v27 main_v28 rfl shapeCasts_S256x1_S256,
    unary main_v28 main_v29 (broadcastInDim S1x256 ![1] bcast_S256_S1x256_1 : (⟨S256, .i1⟩ : BufTy).Contents (Elt F) → (⟨S1x256, .i1⟩ : BufTy).Contents (Elt F)),
    nullary main_cst_0 (constant S_ .f32 0x3F800000#32),
    unary main_cst_0 main_v30 (broadcastInDim S262144x1 ![] bcast_S_S262144x1 : (⟨S_, .f32⟩ : BufTy).Contents (Elt F) → (⟨S262144x1, .f32⟩ : BufTy).Contents (Elt F)),
    binary main_v30 main_v26 main_v31 (subf : (⟨S262144x1, .f32⟩ : BufTy).Contents (Elt F) → (⟨S262144x1, .f32⟩ : BufTy).Contents (Elt F) → (⟨S262144x1, .f32⟩ : BufTy).Contents (Elt F)),
    TRef.unary (.of main_v29 : TRef sig ⟨S1x256, .i1⟩) main_call0.v0 (broadcastInDim S262144x256 ![0, 1] bcast_S1x256_S262144x256_0_1),
    TRef.unary (.of main_v26 : TRef sig ⟨S262144x1, .f32⟩) main_call0.v1 (broadcastInDim S262144x256 ![0, 1] bcast_S262144x1_S262144x256_0_1),
    TRef.unary (.of main_v31 : TRef sig ⟨S262144x1, .f32⟩) main_call0.v2 (broadcastInDim S262144x256 ![0, 1] bcast_S262144x1_S262144x256_0_1),
    TRef.ternary main_call0.v0 main_call0.v1 main_call0.v2 main_call0.v3 select,
    binary main_v25 main_v32 main_v33 (mulf : (⟨S262144x256, .f32⟩ : BufTy).Contents (Elt F) → (⟨S262144x256, .f32⟩ : BufTy).Contents (Elt F) → (⟨S262144x256, .f32⟩ : BufTy).Contents (Elt F)),
    unary main_v24 main_v34 ((extractStridedSlice S262144x1 ![0, 1] · slices_S262144x8_S262144x1_0_1) : (⟨S262144x8, .f32⟩ : BufTy).Contents (Elt F) → (⟨S262144x1, .f32⟩ : BufTy).Contents (Elt F)),
    unary main_c main_v35 ((extractStridedSlice S256x1 ![0, 1] · slices_S256x8_S256x1_0_1) : (⟨S256x8, .i1⟩ : BufTy).Contents (Elt F) → (⟨S256x1, .i1⟩ : BufTy).Contents (Elt F)),
    reshape main_v35 main_v36 rfl shapeCasts_S256x1_S256,
    unary main_v36 main_v37 (broadcastInDim S1x256 ![1] bcast_S256_S1x256_1 : (⟨S256, .i1⟩ : BufTy).Contents (Elt F) → (⟨S1x256, .i1⟩ : BufTy).Contents (Elt F)),
    nullary main_cst_1 (constant S_ .f32 0x3F800000#32),
    unary main_cst_1 main_v38 (broadcastInDim S262144x1 ![] bcast_S_S262144x1 : (⟨S_, .f32⟩ : BufTy).Contents (Elt F) → (⟨S262144x1, .f32⟩ : BufTy).Contents (Elt F)),
    binary main_v38 main_v34 main_v39 (subf : (⟨S262144x1, .f32⟩ : BufTy).Contents (Elt F) → (⟨S262144x1, .f32⟩ : BufTy).Contents (Elt F) → (⟨S262144x1, .f32⟩ : BufTy).Contents (Elt F)),
    TRef.unary (.of main_v37 : TRef sig ⟨S1x256, .i1⟩) main_call1.v0 (broadcastInDim S262144x256 ![0, 1] bcast_S1x256_S262144x256_0_1),
    TRef.unary (.of main_v34 : TRef sig ⟨S262144x1, .f32⟩) main_call1.v1 (broadcastInDim S262144x256 ![0, 1] bcast_S262144x1_S262144x256_0_1),
    TRef.unary (.of main_v39 : TRef sig ⟨S262144x1, .f32⟩) main_call1.v2 (broadcastInDim S262144x256 ![0, 1] bcast_S262144x1_S262144x256_0_1),
    TRef.ternary main_call1.v0 main_call1.v1 main_call1.v2 main_call1.v3 select,
    binary main_v33 main_v40 main_v41 (mulf : (⟨S262144x256, .f32⟩ : BufTy).Contents (Elt F) → (⟨S262144x256, .f32⟩ : BufTy).Contents (Elt F) → (⟨S262144x256, .f32⟩ : BufTy).Contents (Elt F)),
    unary main_v24 main_v42 ((extractStridedSlice S262144x1 ![0, 2] · slices_S262144x8_S262144x1_0_2) : (⟨S262144x8, .f32⟩ : BufTy).Contents (Elt F) → (⟨S262144x1, .f32⟩ : BufTy).Contents (Elt F)),
    unary main_c main_v43 ((extractStridedSlice S256x1 ![0, 2] · slices_S256x8_S256x1_0_2) : (⟨S256x8, .i1⟩ : BufTy).Contents (Elt F) → (⟨S256x1, .i1⟩ : BufTy).Contents (Elt F)),
    reshape main_v43 main_v44 rfl shapeCasts_S256x1_S256,
    unary main_v44 main_v45 (broadcastInDim S1x256 ![1] bcast_S256_S1x256_1 : (⟨S256, .i1⟩ : BufTy).Contents (Elt F) → (⟨S1x256, .i1⟩ : BufTy).Contents (Elt F)),
    nullary main_cst_2 (constant S_ .f32 0x3F800000#32),
    unary main_cst_2 main_v46 (broadcastInDim S262144x1 ![] bcast_S_S262144x1 : (⟨S_, .f32⟩ : BufTy).Contents (Elt F) → (⟨S262144x1, .f32⟩ : BufTy).Contents (Elt F)),
    binary main_v46 main_v42 main_v47 (subf : (⟨S262144x1, .f32⟩ : BufTy).Contents (Elt F) → (⟨S262144x1, .f32⟩ : BufTy).Contents (Elt F) → (⟨S262144x1, .f32⟩ : BufTy).Contents (Elt F)),
    TRef.unary (.of main_v45 : TRef sig ⟨S1x256, .i1⟩) main_call2.v0 (broadcastInDim S262144x256 ![0, 1] bcast_S1x256_S262144x256_0_1),
    TRef.unary (.of main_v42 : TRef sig ⟨S262144x1, .f32⟩) main_call2.v1 (broadcastInDim S262144x256 ![0, 1] bcast_S262144x1_S262144x256_0_1),
    TRef.unary (.of main_v47 : TRef sig ⟨S262144x1, .f32⟩) main_call2.v2 (broadcastInDim S262144x256 ![0, 1] bcast_S262144x1_S262144x256_0_1),
    TRef.ternary main_call2.v0 main_call2.v1 main_call2.v2 main_call2.v3 select,
    binary main_v41 main_v48 main_v49 (mulf : (⟨S262144x256, .f32⟩ : BufTy).Contents (Elt F) → (⟨S262144x256, .f32⟩ : BufTy).Contents (Elt F) → (⟨S262144x256, .f32⟩ : BufTy).Contents (Elt F)),
    unary main_v24 main_v50 ((extractStridedSlice S262144x1 ![0, 3] · slices_S262144x8_S262144x1_0_3) : (⟨S262144x8, .f32⟩ : BufTy).Contents (Elt F) → (⟨S262144x1, .f32⟩ : BufTy).Contents (Elt F)),
    unary main_c main_v51 ((extractStridedSlice S256x1 ![0, 3] · slices_S256x8_S256x1_0_3) : (⟨S256x8, .i1⟩ : BufTy).Contents (Elt F) → (⟨S256x1, .i1⟩ : BufTy).Contents (Elt F)),
    reshape main_v51 main_v52 rfl shapeCasts_S256x1_S256,
    unary main_v52 main_v53 (broadcastInDim S1x256 ![1] bcast_S256_S1x256_1 : (⟨S256, .i1⟩ : BufTy).Contents (Elt F) → (⟨S1x256, .i1⟩ : BufTy).Contents (Elt F)),
    nullary main_cst_3 (constant S_ .f32 0x3F800000#32),
    unary main_cst_3 main_v54 (broadcastInDim S262144x1 ![] bcast_S_S262144x1 : (⟨S_, .f32⟩ : BufTy).Contents (Elt F) → (⟨S262144x1, .f32⟩ : BufTy).Contents (Elt F)),
    binary main_v54 main_v50 main_v55 (subf : (⟨S262144x1, .f32⟩ : BufTy).Contents (Elt F) → (⟨S262144x1, .f32⟩ : BufTy).Contents (Elt F) → (⟨S262144x1, .f32⟩ : BufTy).Contents (Elt F)),
    TRef.unary (.of main_v53 : TRef sig ⟨S1x256, .i1⟩) main_call3.v0 (broadcastInDim S262144x256 ![0, 1] bcast_S1x256_S262144x256_0_1),
    TRef.unary (.of main_v50 : TRef sig ⟨S262144x1, .f32⟩) main_call3.v1 (broadcastInDim S262144x256 ![0, 1] bcast_S262144x1_S262144x256_0_1),
    TRef.unary (.of main_v55 : TRef sig ⟨S262144x1, .f32⟩) main_call3.v2 (broadcastInDim S262144x256 ![0, 1] bcast_S262144x1_S262144x256_0_1),
    TRef.ternary main_call3.v0 main_call3.v1 main_call3.v2 main_call3.v3 select,
    binary main_v49 main_v56 main_v57 (mulf : (⟨S262144x256, .f32⟩ : BufTy).Contents (Elt F) → (⟨S262144x256, .f32⟩ : BufTy).Contents (Elt F) → (⟨S262144x256, .f32⟩ : BufTy).Contents (Elt F)),
    unary main_v24 main_v58 ((extractStridedSlice S262144x1 ![0, 4] · slices_S262144x8_S262144x1_0_4) : (⟨S262144x8, .f32⟩ : BufTy).Contents (Elt F) → (⟨S262144x1, .f32⟩ : BufTy).Contents (Elt F)),
    unary main_c main_v59 ((extractStridedSlice S256x1 ![0, 4] · slices_S256x8_S256x1_0_4) : (⟨S256x8, .i1⟩ : BufTy).Contents (Elt F) → (⟨S256x1, .i1⟩ : BufTy).Contents (Elt F)),
    reshape main_v59 main_v60 rfl shapeCasts_S256x1_S256,
    unary main_v60 main_v61 (broadcastInDim S1x256 ![1] bcast_S256_S1x256_1 : (⟨S256, .i1⟩ : BufTy).Contents (Elt F) → (⟨S1x256, .i1⟩ : BufTy).Contents (Elt F)),
    nullary main_cst_4 (constant S_ .f32 0x3F800000#32),
    unary main_cst_4 main_v62 (broadcastInDim S262144x1 ![] bcast_S_S262144x1 : (⟨S_, .f32⟩ : BufTy).Contents (Elt F) → (⟨S262144x1, .f32⟩ : BufTy).Contents (Elt F)),
    binary main_v62 main_v58 main_v63 (subf : (⟨S262144x1, .f32⟩ : BufTy).Contents (Elt F) → (⟨S262144x1, .f32⟩ : BufTy).Contents (Elt F) → (⟨S262144x1, .f32⟩ : BufTy).Contents (Elt F)),
    TRef.unary (.of main_v61 : TRef sig ⟨S1x256, .i1⟩) main_call4.v0 (broadcastInDim S262144x256 ![0, 1] bcast_S1x256_S262144x256_0_1),
    TRef.unary (.of main_v58 : TRef sig ⟨S262144x1, .f32⟩) main_call4.v1 (broadcastInDim S262144x256 ![0, 1] bcast_S262144x1_S262144x256_0_1),
    TRef.unary (.of main_v63 : TRef sig ⟨S262144x1, .f32⟩) main_call4.v2 (broadcastInDim S262144x256 ![0, 1] bcast_S262144x1_S262144x256_0_1),
    TRef.ternary main_call4.v0 main_call4.v1 main_call4.v2 main_call4.v3 select,
    binary main_v57 main_v64 main_v65 (mulf : (⟨S262144x256, .f32⟩ : BufTy).Contents (Elt F) → (⟨S262144x256, .f32⟩ : BufTy).Contents (Elt F) → (⟨S262144x256, .f32⟩ : BufTy).Contents (Elt F)),
    unary main_v24 main_v66 ((extractStridedSlice S262144x1 ![0, 5] · slices_S262144x8_S262144x1_0_5) : (⟨S262144x8, .f32⟩ : BufTy).Contents (Elt F) → (⟨S262144x1, .f32⟩ : BufTy).Contents (Elt F)),
    unary main_c main_v67 ((extractStridedSlice S256x1 ![0, 5] · slices_S256x8_S256x1_0_5) : (⟨S256x8, .i1⟩ : BufTy).Contents (Elt F) → (⟨S256x1, .i1⟩ : BufTy).Contents (Elt F)),
    reshape main_v67 main_v68 rfl shapeCasts_S256x1_S256,
    unary main_v68 main_v69 (broadcastInDim S1x256 ![1] bcast_S256_S1x256_1 : (⟨S256, .i1⟩ : BufTy).Contents (Elt F) → (⟨S1x256, .i1⟩ : BufTy).Contents (Elt F)),
    nullary main_cst_5 (constant S_ .f32 0x3F800000#32),
    unary main_cst_5 main_v70 (broadcastInDim S262144x1 ![] bcast_S_S262144x1 : (⟨S_, .f32⟩ : BufTy).Contents (Elt F) → (⟨S262144x1, .f32⟩ : BufTy).Contents (Elt F)),
    binary main_v70 main_v66 main_v71 (subf : (⟨S262144x1, .f32⟩ : BufTy).Contents (Elt F) → (⟨S262144x1, .f32⟩ : BufTy).Contents (Elt F) → (⟨S262144x1, .f32⟩ : BufTy).Contents (Elt F)),
    TRef.unary (.of main_v69 : TRef sig ⟨S1x256, .i1⟩) main_call5.v0 (broadcastInDim S262144x256 ![0, 1] bcast_S1x256_S262144x256_0_1),
    TRef.unary (.of main_v66 : TRef sig ⟨S262144x1, .f32⟩) main_call5.v1 (broadcastInDim S262144x256 ![0, 1] bcast_S262144x1_S262144x256_0_1),
    TRef.unary (.of main_v71 : TRef sig ⟨S262144x1, .f32⟩) main_call5.v2 (broadcastInDim S262144x256 ![0, 1] bcast_S262144x1_S262144x256_0_1),
    TRef.ternary main_call5.v0 main_call5.v1 main_call5.v2 main_call5.v3 select,
    binary main_v65 main_v72 main_v73 (mulf : (⟨S262144x256, .f32⟩ : BufTy).Contents (Elt F) → (⟨S262144x256, .f32⟩ : BufTy).Contents (Elt F) → (⟨S262144x256, .f32⟩ : BufTy).Contents (Elt F)),
    unary main_v24 main_v74 ((extractStridedSlice S262144x1 ![0, 6] · slices_S262144x8_S262144x1_0_6) : (⟨S262144x8, .f32⟩ : BufTy).Contents (Elt F) → (⟨S262144x1, .f32⟩ : BufTy).Contents (Elt F)),
    unary main_c main_v75 ((extractStridedSlice S256x1 ![0, 6] · slices_S256x8_S256x1_0_6) : (⟨S256x8, .i1⟩ : BufTy).Contents (Elt F) → (⟨S256x1, .i1⟩ : BufTy).Contents (Elt F)),
    reshape main_v75 main_v76 rfl shapeCasts_S256x1_S256,
    unary main_v76 main_v77 (broadcastInDim S1x256 ![1] bcast_S256_S1x256_1 : (⟨S256, .i1⟩ : BufTy).Contents (Elt F) → (⟨S1x256, .i1⟩ : BufTy).Contents (Elt F)),
    nullary main_cst_6 (constant S_ .f32 0x3F800000#32),
    unary main_cst_6 main_v78 (broadcastInDim S262144x1 ![] bcast_S_S262144x1 : (⟨S_, .f32⟩ : BufTy).Contents (Elt F) → (⟨S262144x1, .f32⟩ : BufTy).Contents (Elt F)),
    binary main_v78 main_v74 main_v79 (subf : (⟨S262144x1, .f32⟩ : BufTy).Contents (Elt F) → (⟨S262144x1, .f32⟩ : BufTy).Contents (Elt F) → (⟨S262144x1, .f32⟩ : BufTy).Contents (Elt F)),
    TRef.unary (.of main_v77 : TRef sig ⟨S1x256, .i1⟩) main_call6.v0 (broadcastInDim S262144x256 ![0, 1] bcast_S1x256_S262144x256_0_1),
    TRef.unary (.of main_v74 : TRef sig ⟨S262144x1, .f32⟩) main_call6.v1 (broadcastInDim S262144x256 ![0, 1] bcast_S262144x1_S262144x256_0_1),
    TRef.unary (.of main_v79 : TRef sig ⟨S262144x1, .f32⟩) main_call6.v2 (broadcastInDim S262144x256 ![0, 1] bcast_S262144x1_S262144x256_0_1),
    TRef.ternary main_call6.v0 main_call6.v1 main_call6.v2 main_call6.v3 select,
    binary main_v73 main_v80 main_v81 (mulf : (⟨S262144x256, .f32⟩ : BufTy).Contents (Elt F) → (⟨S262144x256, .f32⟩ : BufTy).Contents (Elt F) → (⟨S262144x256, .f32⟩ : BufTy).Contents (Elt F)),
    unary main_v24 main_v82 ((extractStridedSlice S262144x1 ![0, 7] · slices_S262144x8_S262144x1_0_7) : (⟨S262144x8, .f32⟩ : BufTy).Contents (Elt F) → (⟨S262144x1, .f32⟩ : BufTy).Contents (Elt F)),
    unary main_c main_v83 ((extractStridedSlice S256x1 ![0, 7] · slices_S256x8_S256x1_0_7) : (⟨S256x8, .i1⟩ : BufTy).Contents (Elt F) → (⟨S256x1, .i1⟩ : BufTy).Contents (Elt F)),
    reshape main_v83 main_v84 rfl shapeCasts_S256x1_S256,
    unary main_v84 main_v85 (broadcastInDim S1x256 ![1] bcast_S256_S1x256_1 : (⟨S256, .i1⟩ : BufTy).Contents (Elt F) → (⟨S1x256, .i1⟩ : BufTy).Contents (Elt F)),
    nullary main_cst_7 (constant S_ .f32 0x3F800000#32),
    unary main_cst_7 main_v86 (broadcastInDim S262144x1 ![] bcast_S_S262144x1 : (⟨S_, .f32⟩ : BufTy).Contents (Elt F) → (⟨S262144x1, .f32⟩ : BufTy).Contents (Elt F)),
    binary main_v86 main_v82 main_v87 (subf : (⟨S262144x1, .f32⟩ : BufTy).Contents (Elt F) → (⟨S262144x1, .f32⟩ : BufTy).Contents (Elt F) → (⟨S262144x1, .f32⟩ : BufTy).Contents (Elt F)),
    TRef.unary (.of main_v85 : TRef sig ⟨S1x256, .i1⟩) main_call7.v0 (broadcastInDim S262144x256 ![0, 1] bcast_S1x256_S262144x256_0_1),
    TRef.unary (.of main_v82 : TRef sig ⟨S262144x1, .f32⟩) main_call7.v1 (broadcastInDim S262144x256 ![0, 1] bcast_S262144x1_S262144x256_0_1),
    TRef.unary (.of main_v87 : TRef sig ⟨S262144x1, .f32⟩) main_call7.v2 (broadcastInDim S262144x256 ![0, 1] bcast_S262144x1_S262144x256_0_1),
    TRef.ternary main_call7.v0 main_call7.v1 main_call7.v2 main_call7.v3 select,
    binary main_v81 main_v88 main_v89 (mulf : (⟨S262144x256, .f32⟩ : BufTy).Contents (Elt F) → (⟨S262144x256, .f32⟩ : BufTy).Contents (Elt F) → (⟨S262144x256, .f32⟩ : BufTy).Contents (Elt F)) ]

-- one chain of binds re-associated: the rewrite recurses once per statement
set_option maxRecDepth 8192 in
set_option maxHeartbeats 4000000 in
/-- @main is that straight line: the two windows and the outlined function unfolded, both sides are one chain of
    steps once sequencing is reassociated. -/
theorem main_eq (c : Dev nD) : main (F := F) c = seq ops := by
  simp only [main, main_part0, main_part1, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., unary_bufs_sub .., unary_bufs_sub .., unary_bufs_sub .., unary_bufs_sub .., unary_bufs_sub .., unary_bufs_sub .., nary_bufs_sub .., nullary_bufs_sub .., unary_bufs_sub .., unary_bufs_sub .., unary_bufs_sub .., reshape_bufs_sub .., unary_bufs_sub .., nullary_bufs_sub .., unary_bufs_sub .., binary_bufs_sub .., unary_bufs_sub .., unary_bufs_sub .., unary_bufs_sub .., ternary_bufs_sub .., binary_bufs_sub .., unary_bufs_sub .., unary_bufs_sub .., reshape_bufs_sub .., unary_bufs_sub .., nullary_bufs_sub .., unary_bufs_sub .., binary_bufs_sub .., unary_bufs_sub .., unary_bufs_sub .., unary_bufs_sub .., ternary_bufs_sub .., binary_bufs_sub .., unary_bufs_sub .., unary_bufs_sub .., reshape_bufs_sub .., unary_bufs_sub .., nullary_bufs_sub .., unary_bufs_sub .., binary_bufs_sub .., unary_bufs_sub .., unary_bufs_sub .., unary_bufs_sub .., ternary_bufs_sub .., binary_bufs_sub .., unary_bufs_sub .., unary_bufs_sub .., reshape_bufs_sub .., unary_bufs_sub .., nullary_bufs_sub .., unary_bufs_sub .., binary_bufs_sub .., unary_bufs_sub .., unary_bufs_sub .., unary_bufs_sub .., ternary_bufs_sub .., binary_bufs_sub .., unary_bufs_sub .., unary_bufs_sub .., reshape_bufs_sub .., unary_bufs_sub .., nullary_bufs_sub .., unary_bufs_sub .., binary_bufs_sub .., unary_bufs_sub .., unary_bufs_sub .., unary_bufs_sub .., ternary_bufs_sub .., binary_bufs_sub .., unary_bufs_sub .., unary_bufs_sub .., reshape_bufs_sub .., unary_bufs_sub .., nullary_bufs_sub .., unary_bufs_sub .., binary_bufs_sub .., unary_bufs_sub .., unary_bufs_sub .., unary_bufs_sub .., ternary_bufs_sub .., binary_bufs_sub .., unary_bufs_sub .., unary_bufs_sub .., reshape_bufs_sub .., unary_bufs_sub .., nullary_bufs_sub .., unary_bufs_sub .., binary_bufs_sub .., unary_bufs_sub .., unary_bufs_sub .., unary_bufs_sub .., ternary_bufs_sub .., binary_bufs_sub .., unary_bufs_sub .., unary_bufs_sub .., reshape_bufs_sub .., unary_bufs_sub .., nullary_bufs_sub .., unary_bufs_sub .., binary_bufs_sub .., unary_bufs_sub .., unary_bufs_sub .., unary_bufs_sub .., ternary_bufs_sub .., binary_bufs_sub ..⟩

/-! ## The line cut into stretches -/

/-- The table of bits and the corner array. -/
abbrev opsA : List (HloOp τ sig (Elt F)) :=
  [ nullary main_c (fun i => lit0 (S256x8.rowMajor i)),
    unary main_arg0 main_v0 ((extractStridedSlice S64x64x64 ![0, 0, 0] · slices_S65x65x65_S64x64x64_0_0_0) : (⟨S65x65x65, .f32⟩ : BufTy).Contents (Elt F) → (⟨S64x64x64, .f32⟩ : BufTy).Contents (Elt F)),
    reshape main_v0 main_v1 rfl shapeCasts_S64x64x64_S262144,
    unary main_arg0 main_v2 ((extractStridedSlice S64x64x64 ![1, 0, 0] · slices_S65x65x65_S64x64x64_1_0_0) : (⟨S65x65x65, .f32⟩ : BufTy).Contents (Elt F) → (⟨S64x64x64, .f32⟩ : BufTy).Contents (Elt F)),
    reshape main_v2 main_v3 rfl shapeCasts_S64x64x64_S262144,
    unary main_arg0 main_v4 ((extractStridedSlice S64x64x64 ![1, 1, 0] · slices_S65x65x65_S64x64x64_1_1_0) : (⟨S65x65x65, .f32⟩ : BufTy).Contents (Elt F) → (⟨S64x64x64, .f32⟩ : BufTy).Contents (Elt F)),
    reshape main_v4 main_v5 rfl shapeCasts_S64x64x64_S262144,
    unary main_arg0 main_v6 ((extractStridedSlice S64x64x64 ![0, 1, 0] · slices_S65x65x65_S64x64x64_0_1_0) : (⟨S65x65x65, .f32⟩ : BufTy).Contents (Elt F) → (⟨S64x64x64, .f32⟩ : BufTy).Contents (Elt F)),
    reshape main_v6 main_v7 rfl shapeCasts_S64x64x64_S262144,
    unary main_arg0 main_v8 ((extractStridedSlice S64x64x64 ![0, 0, 1] · slices_S65x65x65_S64x64x64_0_0_1) : (⟨S65x65x65, .f32⟩ : BufTy).Contents (Elt F) → (⟨S64x64x64, .f32⟩ : BufTy).Contents (Elt F)),
    reshape main_v8 main_v9 rfl shapeCasts_S64x64x64_S262144,
    unary main_arg0 main_v10 ((extractStridedSlice S64x64x64 ![1, 0, 1] · slices_S65x65x65_S64x64x64_1_0_1) : (⟨S65x65x65, .f32⟩ : BufTy).Contents (Elt F) → (⟨S64x64x64, .f32⟩ : BufTy).Contents (Elt F)),
    reshape main_v10 main_v11 rfl shapeCasts_S64x64x64_S262144,
    unary main_arg0 main_v12 ((extractStridedSlice S64x64x64 ![1, 1, 1] · slices_S65x65x65_S64x64x64_1_1_1) : (⟨S65x65x65, .f32⟩ : BufTy).Contents (Elt F) → (⟨S64x64x64, .f32⟩ : BufTy).Contents (Elt F)),
    reshape main_v12 main_v13 rfl shapeCasts_S64x64x64_S262144,
    unary main_arg0 main_v14 ((extractStridedSlice S64x64x64 ![0, 1, 1] · slices_S65x65x65_S64x64x64_0_1_1) : (⟨S65x65x65, .f32⟩ : BufTy).Contents (Elt F) → (⟨S64x64x64, .f32⟩ : BufTy).Contents (Elt F)),
    reshape main_v14 main_v15 rfl shapeCasts_S64x64x64_S262144,
    unary main_v1 main_v16 (broadcastInDim S262144x1 ![0] bcast_S262144_S262144x1_0 : (⟨S262144, .f32⟩ : BufTy).Contents (Elt F) → (⟨S262144x1, .f32⟩ : BufTy).Contents (Elt F)),
    unary main_v3 main_v17 (broadcastInDim S262144x1 ![0] bcast_S262144_S262144x1_0 : (⟨S262144, .f32⟩ : BufTy).Contents (Elt F) → (⟨S262144x1, .f32⟩ : BufTy).Contents (Elt F)),
    unary main_v5 main_v18 (broadcastInDim S262144x1 ![0] bcast_S262144_S262144x1_0 : (⟨S262144, .f32⟩ : BufTy).Contents (Elt F) → (⟨S262144x1, .f32⟩ : BufTy).Contents (Elt F)),
    unary main_v7 main_v19 (broadcastInDim S262144x1 ![0] bcast_S262144_S262144x1_0 : (⟨S262144, .f32⟩ : BufTy).Contents (Elt F) → (⟨S262144x1, .f32⟩ : BufTy).Contents (Elt F)),
    unary main_v9 main_v20 (broadcastInDim S262144x1 ![0] bcast_S262144_S262144x1_0 : (⟨S262144, .f32⟩ : BufTy).Contents (Elt F) → (⟨S262144x1, .f32⟩ : BufTy).Contents (Elt F)),
    unary main_v11 main_v21 (broadcastInDim S262144x1 ![0] bcast_S262144_S262144x1_0 : (⟨S262144, .f32⟩ : BufTy).Contents (Elt F) → (⟨S262144x1, .f32⟩ : BufTy).Contents (Elt F)),
    unary main_v13 main_v22 (broadcastInDim S262144x1 ![0] bcast_S262144_S262144x1_0 : (⟨S262144, .f32⟩ : BufTy).Contents (Elt F) → (⟨S262144x1, .f32⟩ : BufTy).Contents (Elt F)),
    unary main_v15 main_v23 (broadcastInDim S262144x1 ![0] bcast_S262144_S262144x1_0 : (⟨S262144, .f32⟩ : BufTy).Contents (Elt F) → (⟨S262144x1, .f32⟩ : BufTy).Contents (Elt F)),
    nary ![main_v16, main_v17, main_v18, main_v19, main_v20, main_v21, main_v22, main_v23] main_v24 (fun u => concatenate S262144x8 1 [⟨S262144x1, u 0⟩, ⟨S262144x1, u 1⟩, ⟨S262144x1, u 2⟩, ⟨S262144x1, u 3⟩, ⟨S262144x1, u 4⟩, ⟨S262144x1, u 5⟩, ⟨S262144x1, u 6⟩, ⟨S262144x1, u 7⟩] concatenates_S262144x1_S262144x1_S262144x1_S262144x1_S262144x1_S262144x1_S262144x1_S262144x1_S262144x8_d1) ]

/-- The array of ones. -/
abbrev opsB : List (HloOp τ sig (Elt F)) :=
  [ nullary main_cst (constant S_ .f32 0x3F800000#32),
    unary main_cst main_v25 (broadcastInDim S262144x256 ![] bcast_S_S262144x256 : (⟨S_, .f32⟩ : BufTy).Contents (Elt F) → (⟨S262144x256, .f32⟩ : BufTy).Contents (Elt F)) ]

/-- Corner 0's factor multiplied on. -/
abbrev stg0 : List (HloOp τ sig (Elt F)) :=
  [ unary main_v24 main_v26 ((extractStridedSlice S262144x1 ![0, 0] · slices_S262144x8_S262144x1_0_0) : (⟨S262144x8, .f32⟩ : BufTy).Contents (Elt F) → (⟨S262144x1, .f32⟩ : BufTy).Contents (Elt F)),
    unary main_c main_v27 ((extractStridedSlice S256x1 ![0, 0] · slices_S256x8_S256x1_0_0) : (⟨S256x8, .i1⟩ : BufTy).Contents (Elt F) → (⟨S256x1, .i1⟩ : BufTy).Contents (Elt F)),
    reshape main_v27 main_v28 rfl shapeCasts_S256x1_S256,
    unary main_v28 main_v29 (broadcastInDim S1x256 ![1] bcast_S256_S1x256_1 : (⟨S256, .i1⟩ : BufTy).Contents (Elt F) → (⟨S1x256, .i1⟩ : BufTy).Contents (Elt F)),
    nullary main_cst_0 (constant S_ .f32 0x3F800000#32),
    unary main_cst_0 main_v30 (broadcastInDim S262144x1 ![] bcast_S_S262144x1 : (⟨S_, .f32⟩ : BufTy).Contents (Elt F) → (⟨S262144x1, .f32⟩ : BufTy).Contents (Elt F)),
    binary main_v30 main_v26 main_v31 (subf : (⟨S262144x1, .f32⟩ : BufTy).Contents (Elt F) → (⟨S262144x1, .f32⟩ : BufTy).Contents (Elt F) → (⟨S262144x1, .f32⟩ : BufTy).Contents (Elt F)),
    TRef.unary (.of main_v29 : TRef sig ⟨S1x256, .i1⟩) main_call0.v0 (broadcastInDim S262144x256 ![0, 1] bcast_S1x256_S262144x256_0_1),
    TRef.unary (.of main_v26 : TRef sig ⟨S262144x1, .f32⟩) main_call0.v1 (broadcastInDim S262144x256 ![0, 1] bcast_S262144x1_S262144x256_0_1),
    TRef.unary (.of main_v31 : TRef sig ⟨S262144x1, .f32⟩) main_call0.v2 (broadcastInDim S262144x256 ![0, 1] bcast_S262144x1_S262144x256_0_1),
    TRef.ternary main_call0.v0 main_call0.v1 main_call0.v2 main_call0.v3 select,
    binary main_v25 main_v32 main_v33 (mulf : (⟨S262144x256, .f32⟩ : BufTy).Contents (Elt F) → (⟨S262144x256, .f32⟩ : BufTy).Contents (Elt F) → (⟨S262144x256, .f32⟩ : BufTy).Contents (Elt F)) ]

/-- Corner 1's factor multiplied on. -/
abbrev stg1 : List (HloOp τ sig (Elt F)) :=
  [ unary main_v24 main_v34 ((extractStridedSlice S262144x1 ![0, 1] · slices_S262144x8_S262144x1_0_1) : (⟨S262144x8, .f32⟩ : BufTy).Contents (Elt F) → (⟨S262144x1, .f32⟩ : BufTy).Contents (Elt F)),
    unary main_c main_v35 ((extractStridedSlice S256x1 ![0, 1] · slices_S256x8_S256x1_0_1) : (⟨S256x8, .i1⟩ : BufTy).Contents (Elt F) → (⟨S256x1, .i1⟩ : BufTy).Contents (Elt F)),
    reshape main_v35 main_v36 rfl shapeCasts_S256x1_S256,
    unary main_v36 main_v37 (broadcastInDim S1x256 ![1] bcast_S256_S1x256_1 : (⟨S256, .i1⟩ : BufTy).Contents (Elt F) → (⟨S1x256, .i1⟩ : BufTy).Contents (Elt F)),
    nullary main_cst_1 (constant S_ .f32 0x3F800000#32),
    unary main_cst_1 main_v38 (broadcastInDim S262144x1 ![] bcast_S_S262144x1 : (⟨S_, .f32⟩ : BufTy).Contents (Elt F) → (⟨S262144x1, .f32⟩ : BufTy).Contents (Elt F)),
    binary main_v38 main_v34 main_v39 (subf : (⟨S262144x1, .f32⟩ : BufTy).Contents (Elt F) → (⟨S262144x1, .f32⟩ : BufTy).Contents (Elt F) → (⟨S262144x1, .f32⟩ : BufTy).Contents (Elt F)),
    TRef.unary (.of main_v37 : TRef sig ⟨S1x256, .i1⟩) main_call1.v0 (broadcastInDim S262144x256 ![0, 1] bcast_S1x256_S262144x256_0_1),
    TRef.unary (.of main_v34 : TRef sig ⟨S262144x1, .f32⟩) main_call1.v1 (broadcastInDim S262144x256 ![0, 1] bcast_S262144x1_S262144x256_0_1),
    TRef.unary (.of main_v39 : TRef sig ⟨S262144x1, .f32⟩) main_call1.v2 (broadcastInDim S262144x256 ![0, 1] bcast_S262144x1_S262144x256_0_1),
    TRef.ternary main_call1.v0 main_call1.v1 main_call1.v2 main_call1.v3 select,
    binary main_v33 main_v40 main_v41 (mulf : (⟨S262144x256, .f32⟩ : BufTy).Contents (Elt F) → (⟨S262144x256, .f32⟩ : BufTy).Contents (Elt F) → (⟨S262144x256, .f32⟩ : BufTy).Contents (Elt F)) ]

/-- Corner 2's factor multiplied on. -/
abbrev stg2 : List (HloOp τ sig (Elt F)) :=
  [ unary main_v24 main_v42 ((extractStridedSlice S262144x1 ![0, 2] · slices_S262144x8_S262144x1_0_2) : (⟨S262144x8, .f32⟩ : BufTy).Contents (Elt F) → (⟨S262144x1, .f32⟩ : BufTy).Contents (Elt F)),
    unary main_c main_v43 ((extractStridedSlice S256x1 ![0, 2] · slices_S256x8_S256x1_0_2) : (⟨S256x8, .i1⟩ : BufTy).Contents (Elt F) → (⟨S256x1, .i1⟩ : BufTy).Contents (Elt F)),
    reshape main_v43 main_v44 rfl shapeCasts_S256x1_S256,
    unary main_v44 main_v45 (broadcastInDim S1x256 ![1] bcast_S256_S1x256_1 : (⟨S256, .i1⟩ : BufTy).Contents (Elt F) → (⟨S1x256, .i1⟩ : BufTy).Contents (Elt F)),
    nullary main_cst_2 (constant S_ .f32 0x3F800000#32),
    unary main_cst_2 main_v46 (broadcastInDim S262144x1 ![] bcast_S_S262144x1 : (⟨S_, .f32⟩ : BufTy).Contents (Elt F) → (⟨S262144x1, .f32⟩ : BufTy).Contents (Elt F)),
    binary main_v46 main_v42 main_v47 (subf : (⟨S262144x1, .f32⟩ : BufTy).Contents (Elt F) → (⟨S262144x1, .f32⟩ : BufTy).Contents (Elt F) → (⟨S262144x1, .f32⟩ : BufTy).Contents (Elt F)),
    TRef.unary (.of main_v45 : TRef sig ⟨S1x256, .i1⟩) main_call2.v0 (broadcastInDim S262144x256 ![0, 1] bcast_S1x256_S262144x256_0_1),
    TRef.unary (.of main_v42 : TRef sig ⟨S262144x1, .f32⟩) main_call2.v1 (broadcastInDim S262144x256 ![0, 1] bcast_S262144x1_S262144x256_0_1),
    TRef.unary (.of main_v47 : TRef sig ⟨S262144x1, .f32⟩) main_call2.v2 (broadcastInDim S262144x256 ![0, 1] bcast_S262144x1_S262144x256_0_1),
    TRef.ternary main_call2.v0 main_call2.v1 main_call2.v2 main_call2.v3 select,
    binary main_v41 main_v48 main_v49 (mulf : (⟨S262144x256, .f32⟩ : BufTy).Contents (Elt F) → (⟨S262144x256, .f32⟩ : BufTy).Contents (Elt F) → (⟨S262144x256, .f32⟩ : BufTy).Contents (Elt F)) ]

/-- Corner 3's factor multiplied on. -/
abbrev stg3 : List (HloOp τ sig (Elt F)) :=
  [ unary main_v24 main_v50 ((extractStridedSlice S262144x1 ![0, 3] · slices_S262144x8_S262144x1_0_3) : (⟨S262144x8, .f32⟩ : BufTy).Contents (Elt F) → (⟨S262144x1, .f32⟩ : BufTy).Contents (Elt F)),
    unary main_c main_v51 ((extractStridedSlice S256x1 ![0, 3] · slices_S256x8_S256x1_0_3) : (⟨S256x8, .i1⟩ : BufTy).Contents (Elt F) → (⟨S256x1, .i1⟩ : BufTy).Contents (Elt F)),
    reshape main_v51 main_v52 rfl shapeCasts_S256x1_S256,
    unary main_v52 main_v53 (broadcastInDim S1x256 ![1] bcast_S256_S1x256_1 : (⟨S256, .i1⟩ : BufTy).Contents (Elt F) → (⟨S1x256, .i1⟩ : BufTy).Contents (Elt F)),
    nullary main_cst_3 (constant S_ .f32 0x3F800000#32),
    unary main_cst_3 main_v54 (broadcastInDim S262144x1 ![] bcast_S_S262144x1 : (⟨S_, .f32⟩ : BufTy).Contents (Elt F) → (⟨S262144x1, .f32⟩ : BufTy).Contents (Elt F)),
    binary main_v54 main_v50 main_v55 (subf : (⟨S262144x1, .f32⟩ : BufTy).Contents (Elt F) → (⟨S262144x1, .f32⟩ : BufTy).Contents (Elt F) → (⟨S262144x1, .f32⟩ : BufTy).Contents (Elt F)),
    TRef.unary (.of main_v53 : TRef sig ⟨S1x256, .i1⟩) main_call3.v0 (broadcastInDim S262144x256 ![0, 1] bcast_S1x256_S262144x256_0_1),
    TRef.unary (.of main_v50 : TRef sig ⟨S262144x1, .f32⟩) main_call3.v1 (broadcastInDim S262144x256 ![0, 1] bcast_S262144x1_S262144x256_0_1),
    TRef.unary (.of main_v55 : TRef sig ⟨S262144x1, .f32⟩) main_call3.v2 (broadcastInDim S262144x256 ![0, 1] bcast_S262144x1_S262144x256_0_1),
    TRef.ternary main_call3.v0 main_call3.v1 main_call3.v2 main_call3.v3 select,
    binary main_v49 main_v56 main_v57 (mulf : (⟨S262144x256, .f32⟩ : BufTy).Contents (Elt F) → (⟨S262144x256, .f32⟩ : BufTy).Contents (Elt F) → (⟨S262144x256, .f32⟩ : BufTy).Contents (Elt F)) ]

/-- Corner 4's factor multiplied on. -/
abbrev stg4 : List (HloOp τ sig (Elt F)) :=
  [ unary main_v24 main_v58 ((extractStridedSlice S262144x1 ![0, 4] · slices_S262144x8_S262144x1_0_4) : (⟨S262144x8, .f32⟩ : BufTy).Contents (Elt F) → (⟨S262144x1, .f32⟩ : BufTy).Contents (Elt F)),
    unary main_c main_v59 ((extractStridedSlice S256x1 ![0, 4] · slices_S256x8_S256x1_0_4) : (⟨S256x8, .i1⟩ : BufTy).Contents (Elt F) → (⟨S256x1, .i1⟩ : BufTy).Contents (Elt F)),
    reshape main_v59 main_v60 rfl shapeCasts_S256x1_S256,
    unary main_v60 main_v61 (broadcastInDim S1x256 ![1] bcast_S256_S1x256_1 : (⟨S256, .i1⟩ : BufTy).Contents (Elt F) → (⟨S1x256, .i1⟩ : BufTy).Contents (Elt F)),
    nullary main_cst_4 (constant S_ .f32 0x3F800000#32),
    unary main_cst_4 main_v62 (broadcastInDim S262144x1 ![] bcast_S_S262144x1 : (⟨S_, .f32⟩ : BufTy).Contents (Elt F) → (⟨S262144x1, .f32⟩ : BufTy).Contents (Elt F)),
    binary main_v62 main_v58 main_v63 (subf : (⟨S262144x1, .f32⟩ : BufTy).Contents (Elt F) → (⟨S262144x1, .f32⟩ : BufTy).Contents (Elt F) → (⟨S262144x1, .f32⟩ : BufTy).Contents (Elt F)),
    TRef.unary (.of main_v61 : TRef sig ⟨S1x256, .i1⟩) main_call4.v0 (broadcastInDim S262144x256 ![0, 1] bcast_S1x256_S262144x256_0_1),
    TRef.unary (.of main_v58 : TRef sig ⟨S262144x1, .f32⟩) main_call4.v1 (broadcastInDim S262144x256 ![0, 1] bcast_S262144x1_S262144x256_0_1),
    TRef.unary (.of main_v63 : TRef sig ⟨S262144x1, .f32⟩) main_call4.v2 (broadcastInDim S262144x256 ![0, 1] bcast_S262144x1_S262144x256_0_1),
    TRef.ternary main_call4.v0 main_call4.v1 main_call4.v2 main_call4.v3 select,
    binary main_v57 main_v64 main_v65 (mulf : (⟨S262144x256, .f32⟩ : BufTy).Contents (Elt F) → (⟨S262144x256, .f32⟩ : BufTy).Contents (Elt F) → (⟨S262144x256, .f32⟩ : BufTy).Contents (Elt F)) ]

/-- Corner 5's factor multiplied on. -/
abbrev stg5 : List (HloOp τ sig (Elt F)) :=
  [ unary main_v24 main_v66 ((extractStridedSlice S262144x1 ![0, 5] · slices_S262144x8_S262144x1_0_5) : (⟨S262144x8, .f32⟩ : BufTy).Contents (Elt F) → (⟨S262144x1, .f32⟩ : BufTy).Contents (Elt F)),
    unary main_c main_v67 ((extractStridedSlice S256x1 ![0, 5] · slices_S256x8_S256x1_0_5) : (⟨S256x8, .i1⟩ : BufTy).Contents (Elt F) → (⟨S256x1, .i1⟩ : BufTy).Contents (Elt F)),
    reshape main_v67 main_v68 rfl shapeCasts_S256x1_S256,
    unary main_v68 main_v69 (broadcastInDim S1x256 ![1] bcast_S256_S1x256_1 : (⟨S256, .i1⟩ : BufTy).Contents (Elt F) → (⟨S1x256, .i1⟩ : BufTy).Contents (Elt F)),
    nullary main_cst_5 (constant S_ .f32 0x3F800000#32),
    unary main_cst_5 main_v70 (broadcastInDim S262144x1 ![] bcast_S_S262144x1 : (⟨S_, .f32⟩ : BufTy).Contents (Elt F) → (⟨S262144x1, .f32⟩ : BufTy).Contents (Elt F)),
    binary main_v70 main_v66 main_v71 (subf : (⟨S262144x1, .f32⟩ : BufTy).Contents (Elt F) → (⟨S262144x1, .f32⟩ : BufTy).Contents (Elt F) → (⟨S262144x1, .f32⟩ : BufTy).Contents (Elt F)),
    TRef.unary (.of main_v69 : TRef sig ⟨S1x256, .i1⟩) main_call5.v0 (broadcastInDim S262144x256 ![0, 1] bcast_S1x256_S262144x256_0_1),
    TRef.unary (.of main_v66 : TRef sig ⟨S262144x1, .f32⟩) main_call5.v1 (broadcastInDim S262144x256 ![0, 1] bcast_S262144x1_S262144x256_0_1),
    TRef.unary (.of main_v71 : TRef sig ⟨S262144x1, .f32⟩) main_call5.v2 (broadcastInDim S262144x256 ![0, 1] bcast_S262144x1_S262144x256_0_1),
    TRef.ternary main_call5.v0 main_call5.v1 main_call5.v2 main_call5.v3 select,
    binary main_v65 main_v72 main_v73 (mulf : (⟨S262144x256, .f32⟩ : BufTy).Contents (Elt F) → (⟨S262144x256, .f32⟩ : BufTy).Contents (Elt F) → (⟨S262144x256, .f32⟩ : BufTy).Contents (Elt F)) ]

/-- Corner 6's factor multiplied on. -/
abbrev stg6 : List (HloOp τ sig (Elt F)) :=
  [ unary main_v24 main_v74 ((extractStridedSlice S262144x1 ![0, 6] · slices_S262144x8_S262144x1_0_6) : (⟨S262144x8, .f32⟩ : BufTy).Contents (Elt F) → (⟨S262144x1, .f32⟩ : BufTy).Contents (Elt F)),
    unary main_c main_v75 ((extractStridedSlice S256x1 ![0, 6] · slices_S256x8_S256x1_0_6) : (⟨S256x8, .i1⟩ : BufTy).Contents (Elt F) → (⟨S256x1, .i1⟩ : BufTy).Contents (Elt F)),
    reshape main_v75 main_v76 rfl shapeCasts_S256x1_S256,
    unary main_v76 main_v77 (broadcastInDim S1x256 ![1] bcast_S256_S1x256_1 : (⟨S256, .i1⟩ : BufTy).Contents (Elt F) → (⟨S1x256, .i1⟩ : BufTy).Contents (Elt F)),
    nullary main_cst_6 (constant S_ .f32 0x3F800000#32),
    unary main_cst_6 main_v78 (broadcastInDim S262144x1 ![] bcast_S_S262144x1 : (⟨S_, .f32⟩ : BufTy).Contents (Elt F) → (⟨S262144x1, .f32⟩ : BufTy).Contents (Elt F)),
    binary main_v78 main_v74 main_v79 (subf : (⟨S262144x1, .f32⟩ : BufTy).Contents (Elt F) → (⟨S262144x1, .f32⟩ : BufTy).Contents (Elt F) → (⟨S262144x1, .f32⟩ : BufTy).Contents (Elt F)),
    TRef.unary (.of main_v77 : TRef sig ⟨S1x256, .i1⟩) main_call6.v0 (broadcastInDim S262144x256 ![0, 1] bcast_S1x256_S262144x256_0_1),
    TRef.unary (.of main_v74 : TRef sig ⟨S262144x1, .f32⟩) main_call6.v1 (broadcastInDim S262144x256 ![0, 1] bcast_S262144x1_S262144x256_0_1),
    TRef.unary (.of main_v79 : TRef sig ⟨S262144x1, .f32⟩) main_call6.v2 (broadcastInDim S262144x256 ![0, 1] bcast_S262144x1_S262144x256_0_1),
    TRef.ternary main_call6.v0 main_call6.v1 main_call6.v2 main_call6.v3 select,
    binary main_v73 main_v80 main_v81 (mulf : (⟨S262144x256, .f32⟩ : BufTy).Contents (Elt F) → (⟨S262144x256, .f32⟩ : BufTy).Contents (Elt F) → (⟨S262144x256, .f32⟩ : BufTy).Contents (Elt F)) ]

/-- Corner 7's factor multiplied on. -/
abbrev stg7 : List (HloOp τ sig (Elt F)) :=
  [ unary main_v24 main_v82 ((extractStridedSlice S262144x1 ![0, 7] · slices_S262144x8_S262144x1_0_7) : (⟨S262144x8, .f32⟩ : BufTy).Contents (Elt F) → (⟨S262144x1, .f32⟩ : BufTy).Contents (Elt F)),
    unary main_c main_v83 ((extractStridedSlice S256x1 ![0, 7] · slices_S256x8_S256x1_0_7) : (⟨S256x8, .i1⟩ : BufTy).Contents (Elt F) → (⟨S256x1, .i1⟩ : BufTy).Contents (Elt F)),
    reshape main_v83 main_v84 rfl shapeCasts_S256x1_S256,
    unary main_v84 main_v85 (broadcastInDim S1x256 ![1] bcast_S256_S1x256_1 : (⟨S256, .i1⟩ : BufTy).Contents (Elt F) → (⟨S1x256, .i1⟩ : BufTy).Contents (Elt F)),
    nullary main_cst_7 (constant S_ .f32 0x3F800000#32),
    unary main_cst_7 main_v86 (broadcastInDim S262144x1 ![] bcast_S_S262144x1 : (⟨S_, .f32⟩ : BufTy).Contents (Elt F) → (⟨S262144x1, .f32⟩ : BufTy).Contents (Elt F)),
    binary main_v86 main_v82 main_v87 (subf : (⟨S262144x1, .f32⟩ : BufTy).Contents (Elt F) → (⟨S262144x1, .f32⟩ : BufTy).Contents (Elt F) → (⟨S262144x1, .f32⟩ : BufTy).Contents (Elt F)),
    TRef.unary (.of main_v85 : TRef sig ⟨S1x256, .i1⟩) main_call7.v0 (broadcastInDim S262144x256 ![0, 1] bcast_S1x256_S262144x256_0_1),
    TRef.unary (.of main_v82 : TRef sig ⟨S262144x1, .f32⟩) main_call7.v1 (broadcastInDim S262144x256 ![0, 1] bcast_S262144x1_S262144x256_0_1),
    TRef.unary (.of main_v87 : TRef sig ⟨S262144x1, .f32⟩) main_call7.v2 (broadcastInDim S262144x256 ![0, 1] bcast_S262144x1_S262144x256_0_1),
    TRef.ternary main_call7.v0 main_call7.v1 main_call7.v2 main_call7.v3 select,
    binary main_v81 main_v88 main_v89 (mulf : (⟨S262144x256, .f32⟩ : BufTy).Contents (Elt F) → (⟨S262144x256, .f32⟩ : BufTy).Contents (Elt F) → (⟨S262144x256, .f32⟩ : BufTy).Contents (Elt F)) ]

/-- The line is its stretches in a row. -/
theorem ops_split : (ops : List (HloOp τ sig (Elt F))) = opsA ++ (opsB ++ (stg0 ++ (stg1 ++ (stg2 ++ (stg3 ++ (stg4 ++ (stg5 ++ (stg6 ++ (stg7))))))))) := rfl

end Cert.ReferenceIdeal.Hand

end
-- ==== Proof.RefRun2.lean ====
/-
  What each stretch of the reference's line does to the buffers the later stretches read, from any contents: the first
  leaves the table of bits and the corner array of the argument; the second the array of ones; the stretch of corner k
  multiplies corner k's selected factor, read from the corner array and the table, onto the running product. Every
  stretch leaves the argument, the corner array and the table as they were.
-/
import proofs.«179041_j44753559224581_2_alg».proof.Proof.RefRun1

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-! ## Two general facts about a line of host operations -/

/-- The buffers after two lines in a row. -/
theorem after_app {τ' : Topo} {sig' : RefSig} {Val : EltTy → Type} :
    ∀ (l₁ l₂ : List (HloOp τ' sig' Val)) (V : Valuation τ' sig' Val), after (l₁ ++ l₂) V = after l₂ (after l₁ V)
  | [], _, _ => rfl
  | op :: l₁, l₂, V => by rw [List.cons_append, after_cons, after_cons, after_app l₁ l₂]

/-- A concatenation of eight operands, printed over a literal family of eight references: its result with each
    operand's contents at its own reference. -/
theorem nary8_result' {τ' : Topo} {sig' : RefSig} {Val : EltTy → Type} {x0 x1 x2 x3 x4 x5 x6 x7 y : Ref sig' .tc}
    (f : ((k : Fin 8) → ((![x0, x1, x2, x3, x4, x5, x6, x7] : Fin 8 → Ref sig' .tc) k).ty.Contents Val) → y.ty.Contents Val) (hxs hy)
    (G : Valuation τ' sig' Val) :
    (nary (τ := τ') ![x0, x1, x2, x3, x4, x5, x6, x7] y f hxs hy).result G (no_index (Proc.devRef .tc y))
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5))
          (Fin.cons (G (Proc.devRef .tc x6)) (Fin.cons (G (Proc.devRef .tc x7)) (fun i => i.elim0))))))))) := by
  rw [nary_result]; congr 1; funext k; fin_cases k <;> rfl

/-- What one buffer holds after a literal line, by one pass: each operation's result at its own buffer is its
    function's value, at any other reference what was there. -/
macro "line_results" : tactic =>
  `(tactic| (simp (disch := decide) only [after_cons, after_nil,
      nullary_result', unary_result', binary_result', ternary_result', reshape_result', nary8_result',
      nullary_result_ne', unary_result_ne', binary_result_ne', ternary_result_ne', reshape_result_ne', nary_result_ne']))

/-! ## The table of bits and the corner array -/

theorem opsA_c (V : Valuation τ sig (Elt F)) : after opsA V (main_c : DevRef τ sig) = bitsTable := by
  line_results
  rfl

theorem opsA_v24 (V : Valuation τ sig (Elt F)) : after opsA V (main_v24 : DevRef τ sig) = corners (V (main_arg0 : DevRef τ sig)) := by
  line_results
  rfl

theorem opsA_arg0 (V : Valuation τ sig (Elt F)) : after opsA V (main_arg0 : DevRef τ sig) = V (main_arg0 : DevRef τ sig) := by
  line_results

/-! ## The array of ones -/

theorem opsB_v25 (W : Valuation τ sig (Elt F)) :
    after opsB W (main_v25 : DevRef τ sig) = broadcastInDim S262144x256 ![] bcast_S_S262144x256 (constant S_ .f32 0x3F800000#32) := by
  line_results

theorem opsB_v24 (W : Valuation τ sig (Elt F)) : after opsB W (main_v24 : DevRef τ sig) = W (main_v24 : DevRef τ sig) := by
  line_results
theorem opsB_c (W : Valuation τ sig (Elt F)) : after opsB W (main_c : DevRef τ sig) = W (main_c : DevRef τ sig) := by
  line_results
theorem opsB_arg0 (W : Valuation τ sig (Elt F)) : after opsB W (main_arg0 : DevRef τ sig) = W (main_arg0 : DevRef τ sig) := by
  line_results

/-! ## The eight corners' stretches -/

theorem stg0_out (W : Valuation τ sig (Elt F)) :
    after stg0 W (main_v33 : DevRef τ sig)
      = mulf (W (main_v25 : DevRef τ sig)) (factor0 (W (main_v24 : DevRef τ sig)) (W (main_c : DevRef τ sig))) := by
  line_results
  rfl
theorem stg0_v24 (W : Valuation τ sig (Elt F)) : after stg0 W (main_v24 : DevRef τ sig) = W (main_v24 : DevRef τ sig) := by
  line_results
theorem stg0_c (W : Valuation τ sig (Elt F)) : after stg0 W (main_c : DevRef τ sig) = W (main_c : DevRef τ sig) := by
  line_results
theorem stg0_arg0 (W : Valuation τ sig (Elt F)) : after stg0 W (main_arg0 : DevRef τ sig) = W (main_arg0 : DevRef τ sig) := by
  line_results

theorem stg1_out (W : Valuation τ sig (Elt F)) :
    after stg1 W (main_v41 : DevRef τ sig)
      = mulf (W (main_v33 : DevRef τ sig)) (factor1 (W (main_v24 : DevRef τ sig)) (W (main_c : DevRef τ sig))) := by
  line_results
  rfl
theorem stg1_v24 (W : Valuation τ sig (Elt F)) : after stg1 W (main_v24 : DevRef τ sig) = W (main_v24 : DevRef τ sig) := by
  line_results
theorem stg1_c (W : Valuation τ sig (Elt F)) : after stg1 W (main_c : DevRef τ sig) = W (main_c : DevRef τ sig) := by
  line_results
theorem stg1_arg0 (W : Valuation τ sig (Elt F)) : after stg1 W (main_arg0 : DevRef τ sig) = W (main_arg0 : DevRef τ sig) := by
  line_results

theorem stg2_out (W : Valuation τ sig (Elt F)) :
    after stg2 W (main_v49 : DevRef τ sig)
      = mulf (W (main_v41 : DevRef τ sig)) (factor2 (W (main_v24 : DevRef τ sig)) (W (main_c : DevRef τ sig))) := by
  line_results
  rfl
theorem stg2_v24 (W : Valuation τ sig (Elt F)) : after stg2 W (main_v24 : DevRef τ sig) = W (main_v24 : DevRef τ sig) := by
  line_results
theorem stg2_c (W : Valuation τ sig (Elt F)) : after stg2 W (main_c : DevRef τ sig) = W (main_c : DevRef τ sig) := by
  line_results
theorem stg2_arg0 (W : Valuation τ sig (Elt F)) : after stg2 W (main_arg0 : DevRef τ sig) = W (main_arg0 : DevRef τ sig) := by
  line_results

theorem stg3_out (W : Valuation τ sig (Elt F)) :
    after stg3 W (main_v57 : DevRef τ sig)
      = mulf (W (main_v49 : DevRef τ sig)) (factor3 (W (main_v24 : DevRef τ sig)) (W (main_c : DevRef τ sig))) := by
  line_results
  rfl
theorem stg3_v24 (W : Valuation τ sig (Elt F)) : after stg3 W (main_v24 : DevRef τ sig) = W (main_v24 : DevRef τ sig) := by
  line_results
theorem stg3_c (W : Valuation τ sig (Elt F)) : after stg3 W (main_c : DevRef τ sig) = W (main_c : DevRef τ sig) := by
  line_results
theorem stg3_arg0 (W : Valuation τ sig (Elt F)) : after stg3 W (main_arg0 : DevRef τ sig) = W (main_arg0 : DevRef τ sig) := by
  line_results

theorem stg4_out (W : Valuation τ sig (Elt F)) :
    after stg4 W (main_v65 : DevRef τ sig)
      = mulf (W (main_v57 : DevRef τ sig)) (factor4 (W (main_v24 : DevRef τ sig)) (W (main_c : DevRef τ sig))) := by
  line_results
  rfl
theorem stg4_v24 (W : Valuation τ sig (Elt F)) : after stg4 W (main_v24 : DevRef τ sig) = W (main_v24 : DevRef τ sig) := by
  line_results
theorem stg4_c (W : Valuation τ sig (Elt F)) : after stg4 W (main_c : DevRef τ sig) = W (main_c : DevRef τ sig) := by
  line_results
theorem stg4_arg0 (W : Valuation τ sig (Elt F)) : after stg4 W (main_arg0 : DevRef τ sig) = W (main_arg0 : DevRef τ sig) := by
  line_results

theorem stg5_out (W : Valuation τ sig (Elt F)) :
    after stg5 W (main_v73 : DevRef τ sig)
      = mulf (W (main_v65 : DevRef τ sig)) (factor5 (W (main_v24 : DevRef τ sig)) (W (main_c : DevRef τ sig))) := by
  line_results
  rfl
theorem stg5_v24 (W : Valuation τ sig (Elt F)) : after stg5 W (main_v24 : DevRef τ sig) = W (main_v24 : DevRef τ sig) := by
  line_results
theorem stg5_c (W : Valuation τ sig (Elt F)) : after stg5 W (main_c : DevRef τ sig) = W (main_c : DevRef τ sig) := by
  line_results
theorem stg5_arg0 (W : Valuation τ sig (Elt F)) : after stg5 W (main_arg0 : DevRef τ sig) = W (main_arg0 : DevRef τ sig) := by
  line_results

theorem stg6_out (W : Valuation τ sig (Elt F)) :
    after stg6 W (main_v81 : DevRef τ sig)
      = mulf (W (main_v73 : DevRef τ sig)) (factor6 (W (main_v24 : DevRef τ sig)) (W (main_c : DevRef τ sig))) := by
  line_results
  rfl
theorem stg6_v24 (W : Valuation τ sig (Elt F)) : after stg6 W (main_v24 : DevRef τ sig) = W (main_v24 : DevRef τ sig) := by
  line_results
theorem stg6_c (W : Valuation τ sig (Elt F)) : after stg6 W (main_c : DevRef τ sig) = W (main_c : DevRef τ sig) := by
  line_results
theorem stg6_arg0 (W : Valuation τ sig (Elt F)) : after stg6 W (main_arg0 : DevRef τ sig) = W (main_arg0 : DevRef τ sig) := by
  line_results

theorem stg7_out (W : Valuation τ sig (Elt F)) :
    after stg7 W (main_v89 : DevRef τ sig)
      = mulf (W (main_v81 : DevRef τ sig)) (factor7 (W (main_v24 : DevRef τ sig)) (W (main_c : DevRef τ sig))) := by
  line_results
  rfl
theorem stg7_v24 (W : Valuation τ sig (Elt F)) : after stg7 W (main_v24 : DevRef τ sig) = W (main_v24 : DevRef τ sig) := by
  line_results
theorem stg7_c (W : Valuation τ sig (Elt F)) : after stg7 W (main_c : DevRef τ sig) = W (main_c : DevRef τ sig) := by
  line_results
theorem stg7_arg0 (W : Valuation τ sig (Elt F)) : after stg7 W (main_arg0 : DevRef τ sig) = W (main_arg0 : DevRef τ sig) := by
  line_results

/-! ## The whole line -/

/-- After the whole line the result buffer holds the reference's result term of the argument. -/
theorem out_eq (V : Valuation τ sig (Elt F)) : after ops V (main_v89 : DevRef τ sig) = result (V (main_arg0 : DevRef τ sig)) := by
  rw [ops_split]
  simp only [after_app]
  rw [stg7_out]
  rw [stg6_out, stg6_v24, stg6_c]
  rw [stg5_out, stg5_v24, stg5_c]
  rw [stg4_out, stg4_v24, stg4_c]
  rw [stg3_out, stg3_v24, stg3_c]
  rw [stg2_out, stg2_v24, stg2_c]
  rw [stg1_out, stg1_v24, stg1_c]
  rw [stg0_out, stg0_v24, stg0_c]
  rw [opsB_v25, opsB_v24, opsB_c]
  rw [opsA_v24, opsA_c]
  simp only [result, tail]

/-- The line leaves the argument as it was. -/
theorem arg0_eq (V : Valuation τ sig (Elt F)) : after ops V (main_arg0 : DevRef τ sig) = V (main_arg0 : DevRef τ sig) := by
  rw [ops_split]
  simp only [after_app]
  rw [stg7_arg0, stg6_arg0, stg5_arg0, stg4_arg0, stg3_arg0, stg2_arg0, stg1_arg0, stg0_arg0, opsB_arg0, opsA_arg0]

end Cert.ReferenceIdeal.Hand

end
-- ==== Proof.RefRun.lean ====
/-
  The reference program's run: on every device, from any memory with zero counters, every weakly fair execution of
  @main terminates with the result buffer at the reference's result term of the argument's launch contents, the
  argument unchanged.
-/
import proofs.«179041_j44753559224581_2_alg».proof.Proof.RefRun2

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-- On every device, for any float values, from any memory with zero counters: every weakly fair execution of @main
    terminates with the result at the composed term of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89) = result (m ((c.tc : Thread nD τ).loc main_arg0))
      ∧ r.2.mem ((c.tc : Thread nD τ).loc main_arg0) = m ((c.tc : Thread nD τ).loc main_arg0) :=
  (θ_run defs _ _).mono (fun _ h c => ⟨(h c main_v89).trans (out_eq _), (h c main_arg0).trans (arg0_eq _)⟩)
    (run_seq scopedRefs_eq scopedSems_eq defs main (fun _ => ops) main_eq (fun _ => ops_sub) m ρ)

end Cert.ReferenceIdeal.Hand

end
-- ==== Proof.RefValue.lean ====
/-
  The reference's result read at an index.

  Each corner's factor array is a select between two arrays that do not depend on the case (the corner's occupancy and
  one minus it, each a column of the corner array laid along the cells' axis) on a condition that does not depend on the
  cell (a column of the table of bits, laid along the cases' axis). Read at the index (n, t) every layout operation
  names one index of its operand, so the factor at (n, t) is the occupancy of corner c of cell n when bit c of t is set
  and one minus it otherwise. The result is the array of ones multiplied by the eight factors in order, which at (n, t)
  is the weight of case t for cell n.
-/
import proofs.«179041_j44753559224581_2_alg».proof.Proof.RefTerm
import proofs.«179041_j44753559224581_2_alg».proof.Proof.TopoSpec
import Idealize.ShloMosaic.Lib.ValueIdx
import Idealize.ShloMosaic.Lib.ValueLayout
import Idealize.ShloMosaic.Lib.Pipeline.Value

noncomputable section

namespace Cert.ReferenceIdeal.HandValue

open Idealize.ShloMosaic Idealize.ShloMosaic.ValueIdx Cert.ReferenceIdeal Cert.ReferenceIdeal.Hand

/-! ## The layout operations of one factor, each read at an index given by coordinates -/

section Layout
variable {α : Type}

/-- A one-column array laid along the cases' axis reads, at (n, t), its row n. -/
theorem bcast_col_apply (h : S262144x1.BroadcastsInDim S262144x256 ![0, 1]) (x : S262144x1.Idx → α)
    (n : Fin 262144) (t : Fin 256) :
    broadcastInDim S262144x256 ![0, 1] h x (ix2 n t) = x (ix2 n (0 : Fin 1)) := by
  refine broadcastInDim_apply _ h x (ix2 n t) (ix2 n (0 : Fin 1)) fun a => ?_
  match a with
  | ⟨0, _⟩ =>
    exact (if_neg (by decide : ¬ (262144 : Nat) = 1)).symm
  | ⟨1, _⟩ =>
    exact (if_pos (rfl : (1 : Nat) = 1)).symm

/-- A one-row array laid along the cells' axis reads, at (n, t), its column t. -/
theorem bcast_row_apply (h : S1x256.BroadcastsInDim S262144x256 ![0, 1]) (x : S1x256.Idx → α)
    (n : Fin 262144) (t : Fin 256) :
    broadcastInDim S262144x256 ![0, 1] h x (ix2 n t) = x (ix2 (0 : Fin 1) t) := by
  refine broadcastInDim_apply _ h x (ix2 n t) (ix2 (0 : Fin 1) t) fun a => ?_
  match a with
  | ⟨0, _⟩ =>
    exact (if_pos (rfl : (1 : Nat) = 1)).symm
  | ⟨1, _⟩ =>
    exact (if_neg (by decide : ¬ (256 : Nat) = 1)).symm

/-- A vector of 256 stood up as one row reads, at (u, t), its entry t. -/
theorem bcast_vec_apply (h : S256.BroadcastsInDim S1x256 ![1]) (x : S256.Idx → α) (u : Fin 1) (t : Fin 256) :
    broadcastInDim S1x256 ![1] h x (ix2 u t) = x (ix1 t) := by
  refine broadcastInDim_apply _ h x (ix2 u t) (ix1 t) fun a => ?_
  match a with
  | ⟨0, _⟩ =>
    exact (if_neg (by decide : ¬ (256 : Nat) = 1)).symm

/-- A scalar laid over a shape reads the scalar at every index. -/
theorem bcast_scalar_apply {s : Shape} (h : S_.BroadcastsInDim s ![]) (x : S_.Idx → α) (j : s.Idx) :
    broadcastInDim s ![] h x j = x ix0 :=
  broadcastInDim_apply _ h x j ix0 fun a => a.elim0

/-- A one-column array of 256 rows flattened to a vector reads, at t, its row t. -/
theorem flatten_col_apply (h : S256x1.ShapeCasts S256) (x : S256x1.Idx → α) (t : Fin 256) :
    shapeCast S256 x h (ix1 t) = x (ix2 t (0 : Fin 1)) := by
  refine shapeCast_apply x h (ix1 t) (ix2 t (0 : Fin 1)) ?_
  rw [Shape.rowMajor_val_two, Shape.rowMajor_val_one]
  show t.val * 1 + 0 = t.val
  omega

end Layout

/-! ## One corner's factor at an index -/

/-- The factor array of the corner in column `o` read at (n, t): the corner's occupancy in cell n when bit `o` of t is set,
    one minus it otherwise. Stated over any evidence of the operations' side conditions, so that it applies to each of
    the eight factor arrays. -/
theorem factor_entry (C : FVec Ideal S262144x8 .f32) (B : IVec S256x8 1)
    (hB : ∀ (t : Fin 256) (c : Fin 8), B (ix2 t c) = if t.val.testBit c.val then 1#1 else 0#1)
    (o : Nat) (ho : o < 8)
    (hsB : S256x8.Slices ![0, o] S256x1) (hsC : S262144x8.Slices ![0, o] S262144x1)
    (hc : S256x1.ShapeCasts S256) (hb1 : S256.BroadcastsInDim S1x256 ![1])
    (hb2 : S1x256.BroadcastsInDim S262144x256 ![0, 1]) (hb3 : S262144x1.BroadcastsInDim S262144x256 ![0, 1])
    (hb0 : S_.BroadcastsInDim S262144x1 ![])
    (n : Fin 262144) (t : Fin 256) :
    (select
        (broadcastInDim S262144x256 ![0, 1] hb2
          (broadcastInDim S1x256 ![1] hb1
            (shapeCast S256 (extractStridedSlice S256x1 ![0, o] B hsB) hc)))
        (broadcastInDim S262144x256 ![0, 1] hb3
          (extractStridedSlice S262144x1 ![0, o] C hsC))
        (broadcastInDim S262144x256 ![0, 1] hb3
          (subf (broadcastInDim S262144x1 ![] hb0 (constant S_ .f32 0x3F800000#32))
            (extractStridedSlice S262144x1 ![0, o] C hsC)))) (ix2 n t)
      = Cert.Topo.factor (t.val.testBit o) (C (ix2 n ⟨o, ho⟩)) := by
  have eB : extractStridedSlice S256x1 ![0, o] B hsB (ix2 t (0 : Fin 1)) = B (ix2 t ⟨o, ho⟩) :=
    slice2_axis1_apply o B hsB t (0 : Fin 1) ⟨o, ho⟩ rfl
  have eC : extractStridedSlice S262144x1 ![0, o] C hsC (ix2 n (0 : Fin 1)) = C (ix2 n ⟨o, ho⟩) :=
    slice2_axis1_apply o C hsC n (0 : Fin 1) ⟨o, ho⟩ rfl
  rw [select_apply, bcast_row_apply, bcast_vec_apply, flatten_col_apply, eB, bcast_col_apply, bcast_col_apply,
    subf_apply, bcast_scalar_apply, constant_apply, Cert.Topo.word_one, eC, hB t ⟨o, ho⟩]
  show Scalar.select (if t.val.testBit o then 1#1 else 0#1) (C (ix2 n ⟨o, ho⟩)) (1 - C (ix2 n ⟨o, ho⟩)) = _
  unfold Cert.Topo.factor
  cases t.val.testBit o
  · rw [if_neg (by decide), if_neg (by decide), select_zero]
  · rw [if_pos rfl, if_pos rfl, select_one]

/-! ## The eight factor arrays at an index -/

theorem factor0_entry (C : FVec Ideal S262144x8 .f32) (B : IVec S256x8 1)
    (hB : ∀ (t : Fin 256) (c : Fin 8), B (ix2 t c) = if t.val.testBit c.val then 1#1 else 0#1)
    (n : Fin 262144) (t : Fin 256) :
    factor0 (F := Ideal) C B (ix2 n t) = Cert.Topo.factor (t.val.testBit 0) (C (ix2 n (0 : Fin 8))) :=
  factor_entry C B hB 0 (by decide) _ _ _ _ _ _ _ n t

theorem factor1_entry (C : FVec Ideal S262144x8 .f32) (B : IVec S256x8 1)
    (hB : ∀ (t : Fin 256) (c : Fin 8), B (ix2 t c) = if t.val.testBit c.val then 1#1 else 0#1)
    (n : Fin 262144) (t : Fin 256) :
    factor1 (F := Ideal) C B (ix2 n t) = Cert.Topo.factor (t.val.testBit 1) (C (ix2 n (1 : Fin 8))) :=
  factor_entry C B hB 1 (by decide) _ _ _ _ _ _ _ n t

theorem factor2_entry (C : FVec Ideal S262144x8 .f32) (B : IVec S256x8 1)
    (hB : ∀ (t : Fin 256) (c : Fin 8), B (ix2 t c) = if t.val.testBit c.val then 1#1 else 0#1)
    (n : Fin 262144) (t : Fin 256) :
    factor2 (F := Ideal) C B (ix2 n t) = Cert.Topo.factor (t.val.testBit 2) (C (ix2 n (2 : Fin 8))) :=
  factor_entry C B hB 2 (by decide) _ _ _ _ _ _ _ n t

theorem factor3_entry (C : FVec Ideal S262144x8 .f32) (B : IVec S256x8 1)
    (hB : ∀ (t : Fin 256) (c : Fin 8), B (ix2 t c) = if t.val.testBit c.val then 1#1 else 0#1)
    (n : Fin 262144) (t : Fin 256) :
    factor3 (F := Ideal) C B (ix2 n t) = Cert.Topo.factor (t.val.testBit 3) (C (ix2 n (3 : Fin 8))) :=
  factor_entry C B hB 3 (by decide) _ _ _ _ _ _ _ n t

theorem factor4_entry (C : FVec Ideal S262144x8 .f32) (B : IVec S256x8 1)
    (hB : ∀ (t : Fin 256) (c : Fin 8), B (ix2 t c) = if t.val.testBit c.val then 1#1 else 0#1)
    (n : Fin 262144) (t : Fin 256) :
    factor4 (F := Ideal) C B (ix2 n t) = Cert.Topo.factor (t.val.testBit 4) (C (ix2 n (4 : Fin 8))) :=
  factor_entry C B hB 4 (by decide) _ _ _ _ _ _ _ n t

theorem factor5_entry (C : FVec Ideal S262144x8 .f32) (B : IVec S256x8 1)
    (hB : ∀ (t : Fin 256) (c : Fin 8), B (ix2 t c) = if t.val.testBit c.val then 1#1 else 0#1)
    (n : Fin 262144) (t : Fin 256) :
    factor5 (F := Ideal) C B (ix2 n t) = Cert.Topo.factor (t.val.testBit 5) (C (ix2 n (5 : Fin 8))) :=
  factor_entry C B hB 5 (by decide) _ _ _ _ _ _ _ n t

theorem factor6_entry (C : FVec Ideal S262144x8 .f32) (B : IVec S256x8 1)
    (hB : ∀ (t : Fin 256) (c : Fin 8), B (ix2 t c) = if t.val.testBit c.val then 1#1 else 0#1)
    (n : Fin 262144) (t : Fin 256) :
    factor6 (F := Ideal) C B (ix2 n t) = Cert.Topo.factor (t.val.testBit 6) (C (ix2 n (6 : Fin 8))) :=
  factor_entry C B hB 6 (by decide) _ _ _ _ _ _ _ n t

theorem factor7_entry (C : FVec Ideal S262144x8 .f32) (B : IVec S256x8 1)
    (hB : ∀ (t : Fin 256) (c : Fin 8), B (ix2 t c) = if t.val.testBit c.val then 1#1 else 0#1)
    (n : Fin 262144) (t : Fin 256) :
    factor7 (F := Ideal) C B (ix2 n t) = Cert.Topo.factor (t.val.testBit 7) (C (ix2 n (7 : Fin 8))) :=
  factor_entry C B hB 7 (by decide) _ _ _ _ _ _ _ n t

/-! ## The product at an index -/

/-- The reference's product array read at (n, t) is the weight of case t for cell n: the array of ones is one there, and
    the eight factor arrays are the eight factors of the weight, multiplied in the same order. -/
theorem tail_entry (C : FVec Ideal S262144x8 .f32) (B : IVec S256x8 1)
    (hB : ∀ (t : Fin 256) (c : Fin 8), B (ix2 t c) = if t.val.testBit c.val then 1#1 else 0#1)
    (n : Fin 262144) (t : Fin 256) :
    tail (F := Ideal) C B (ix2 n t) = Cert.Topo.topo C n t := by
  unfold tail
  simp only [mulf_apply]
  rw [factor0_entry C B hB, factor1_entry C B hB, factor2_entry C B hB, factor3_entry C B hB, factor4_entry C B hB,
    factor5_entry C B hB, factor6_entry C B hB, factor7_entry C B hB, bcast_scalar_apply, constant_apply,
    Cert.Topo.word_one]
  rfl

/-- The reference's product array is the topology array of the corner array. -/
theorem tail_eq (C : FVec Ideal S262144x8 .f32) (B : IVec S256x8 1)
    (hB : ∀ (t : Fin 256) (c : Fin 8), B (ix2 t c) = if t.val.testBit c.val then 1#1 else 0#1) :
    tail (F := Ideal) C B = Cert.Topo.topoArr C :=
  Cert.Topo.eq_topoArr C _ (tail_entry C B hB)

end Cert.ReferenceIdeal.HandValue

end
-- ==== Proof.RefTables.lean ====
/-
  The table of the cases' bits, entry by entry.

  The table holds one bit for each pair (case t < 256, corner c < 8), listed in row-major order: the pair (t, c) stands
  at position 8·t + c of the list. The 2048 listed bits are compared, one position at a time, with the binary digits of
  the cases: the bit at position 8·t + c is digit c of t.
-/
import proofs.«179041_j44753559224581_2_alg».proof.Proof.RefTerm
import Idealize.ShloMosaic.Lib.ValueIdx

namespace Cert.ReferenceIdeal.HandValue

open Idealize.ShloMosaic Idealize.ShloMosaic.ValueIdx Cert.ReferenceIdeal Cert.ReferenceIdeal.Hand

/-- The list read at a position below its length is the list's word at that position. -/
theorem lit0_at (x : Fin 2048) (i : Nat) (h : x.val = i) : lit0 x = lit0t i := by
  obtain ⟨j, hj⟩ := x
  subst h
  rfl

/-- The listed bit at position 8·t + c is binary digit c of t: a comparison of 2048 listed bits with the digits of the
    numbers below 256, decided by evaluation over the finite set of pairs. -/
theorem lit0t_digit : ∀ (t : Fin 256) (c : Fin 8),
    lit0t (t.val * 8 + c.val) = if t.val.testBit c.val then 1#1 else 0#1 := by
  decide +kernel

/-- The pair (t, c) stands at position 8·t + c of the row-major list of a 256 × 8 table. -/
theorem rowMajor_bits (t : Fin 256) (c : Fin 8) : (S256x8.rowMajor (ix2 t c)).val = t.val * 8 + c.val := by
  rw [Shape.rowMajor_val_two]
  rfl

/-- Entry (t, c) of the table of bits is binary digit c of t. -/
theorem bitsTable_entry (t : Fin 256) (c : Fin 8) :
    Cert.ReferenceIdeal.Hand.bitsTable (ix2 t c) = if t.val.testBit c.val then 1#1 else 0#1 := by
  exact (lit0_at _ _ (rowMajor_bits t c)).trans (lit0t_digit t c)

end Cert.ReferenceIdeal.HandValue
-- ==== Proof.RefResult.lean ====
/-
  The reference's result is the topology array of the corner array of its argument: its product array read entry by
  entry is the weight of each case for each cell, given that the table of bits holds the cases' binary digits, and the
  table the program lists does.
-/
import proofs.«179041_j44753559224581_2_alg».proof.Proof.RefValue
import proofs.«179041_j44753559224581_2_alg».proof.Proof.RefTables

noncomputable section

namespace Cert.ReferenceIdeal.HandValue

open Idealize.ShloMosaic Idealize.ShloMosaic.ValueIdx Cert.ReferenceIdeal Cert.ReferenceIdeal.Hand

/-- The reference's result from an occupancy grid is the topology array of the grid's corner array. -/
theorem result_eq (x : FVec Ideal S65x65x65 .f32) :
    result (F := Ideal) x = Cert.Topo.topoArr (corners (F := Ideal) x) := by
  unfold result
  exact tail_eq _ _ bitsTable_entry

end Cert.ReferenceIdeal.HandValue

end
-- ==== Proof.lean ====
/-
  The certificate of the marching-cubes topology kernel against its reference.

  For every cell of the 64×64×64 grid and every one of the 256 topology cases, both programs compute the case's weight:
  the product over the cell's eight corners, in order and starting from one, of the corner's occupancy p when the case
  has the corner inside and of 1 − p when it has not. Both gather the corners by the same host operations. The reference
  selects each factor by the case's bit; the kernel takes, per block of 2048 cells and per lane l < 128, the factors of
  corners 0 … 6 as c0 + p·c1 from two tables with (c0, c1) = (0, 1) on a set bit and (1, −1) on a clear one, and stores
  the product times (1 − p₇) to lanes 0 … 127 and times p₇ to lanes 128 … 255. On every extended real
  0 + p·1 = p and 1 + p·(−1) = 1 − p, so the factors agree one by one, the products are taken in the same order, and the
  two results are equal entry by entry with no hypothesis on the occupancies: the precondition is never opened.

  The frames: each kernel program is 27 host operations and one launch over 128 grid points whose body loads its three
  input blocks and stores two halves tiling its output block (Proof/KFrameA*, KFrameB*, once per instance); the
  reference is a straight line of host operations (Proof/RefRun*). The ideal pass rewrote nothing, so the kernel's
  idealization is its own text.
-/
import proofs.«179041_j44753559224581_2_alg».proof.Defs
import proofs.«179041_j44753559224581_2_alg».proof.Proof.Gen.Kernel
import proofs.«179041_j44753559224581_2_alg».proof.Proof.Gen.KernelIdeal
import proofs.«179041_j44753559224581_2_alg».proof.Proof.Gen.ReferenceIdeal
import proofs.«179041_j44753559224581_2_alg».proof.Proof.Gen.Pre_finite_inputs
import proofs.«179041_j44753559224581_2_alg».proof.Proof.KFrameBBits
import proofs.«179041_j44753559224581_2_alg».proof.Proof.KValueIdeal
import proofs.«179041_j44753559224581_2_alg».proof.Proof.RefRun
import proofs.«179041_j44753559224581_2_alg».proof.Proof.RefResult
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- The two programs build the corner array by the same operations of the argument: one term. -/
theorem corners_eq (x : FVec Ideal Cert.KernelIdeal.S65x65x65 .f32) :
    Cert.ReferenceIdeal.Hand.corners (F := Ideal) x = Cert.KernelIdeal.Hand.corners (F := Ideal) x := rfl

/-- Both runs end with the result at the topology array of the argument's corners. -/
theorem algebraic : Cert.algebraic_KernelIdeal_ReferenceIdeal := by
  intro m ρ m' ρ' _ hagree
  refine ⟨fun c => Cert.Topo.topoArr (Cert.KernelIdeal.Hand.corners (F := Ideal)
      (m ((c.tc : Thread Cert.KernelIdeal.nD Cert.KernelIdeal.τ).loc Cert.KernelIdeal.main_arg0))),
    Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [hagree c, Cert.ReferenceIdeal.HandValue.result_eq, corners_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
